-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x3072 : Shape := ⟨3, ![1, 4096, 3072]⟩
abbrev S3072x3072 : Shape := ⟨2, ![3072, 3072]⟩
abbrev S48x3072 : Shape := ⟨2, ![48, 3072]⟩
abbrev S3072 : Shape := ⟨1, ![3072]⟩
abbrev S3072x32 : Shape := ⟨2, ![3072, 32]⟩
abbrev S_ : Shape := ⟨0, ![]⟩

class Facts : Prop where
  bcast_S_S1x4096x3072 : S_.BroadcastsInDim S1x4096x3072 (![] : Fin 0 → Fin S1x4096x3072.rank)
  reducesTo_S1x4096x3072_S_d0_1_2 : S1x4096x3072.ReducesTo [0, 1, 2] S_
  h_S_ : 0 < S_.numel
  bcast_S_S48x3072 : S_.BroadcastsInDim S48x3072 (![] : Fin 0 → Fin S48x3072.rank)
  reducesTo_S48x3072_S_d0_1 : S48x3072.ReducesTo [0, 1] S_
  bcast_S_S3072 : S_.BroadcastsInDim S3072 (![] : Fin 0 → Fin S3072.rank)
  reducesTo_S3072_S_d0 : S3072.ReducesTo [0] S_
  bcast_S_S3072x32 : S_.BroadcastsInDim S3072x32 (![] : Fin 0 → Fin S3072x32.rank)
  reducesTo_S3072x32_S_d0_1 : S3072x32.ReducesTo [0, 1] S_

variable [Facts]

def fn_part1 {F : FTy → Type} [FloatOps F] (main_arg5 : FVec F S3072x32 .f32) (main_arg6 : FVec F S3072 .f32) (main_v13 : IVec S_ 1) (main_v16 : IVec S3072x32 1) : IVec S_ 1 :=
  let main_c_5 : IVec S_ 1 := constantI S_ 1 1#1
  let main_v17 : IVec S_ 1 := (fun x v => Host.reduce IntOp.andi x v reducesTo_S3072x32_S_d0_1 h_S_) main_v16 main_c_5
  let main_v18 : IVec S_ 1 := andi main_v13 main_v17
  let main_v19 : FVec F S3072x32 .f32 := Host.absf main_arg5
  let main_cst_6 : FVec F S_ .f32 := constant S_ .f32 0x7F800000#32
  let main_v20 : FVec F S3072x32 .f32 := broadcastInDim S3072x32 ![] bcast_S_S3072x32 main_cst_6
  let main_v21 : IVec S3072x32 1 := cmpf .olt main_v19 main_v20
  let main_c_7 : IVec S_ 1 := constantI S_ 1 1#1
  let main_v22 : IVec S_ 1 := (fun x v => Host.reduce IntOp.andi x v reducesTo_S3072x32_S_d0_1 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S1x4096x3072 .f32) (main_arg1 : IVec S3072x3072 32) (main_arg2 : FVec F S48x3072 .f32) (main_arg3 : FVec F S3072 .f32) (main_arg4 : FVec F S3072x32 .f32) (main_arg5 : FVec F S3072x32 .f32) (main_arg6 : FVec F S3072 .f32) : IVec S_ 1 :=
  let main_v0 : FVec F S1x4096x3072 .f32 := Host.absf main_arg0
  let main_cst : FVec F S_ .f32 := constant S_ .f32 0x7F800000#32
  let main_v1 : FVec F S1x4096x3072 .f32 := broadcastInDim S1x4096x3072 ![] bcast_S_S1x4096x3072 main_cst
  let main_v2 : IVec S1x4096x3072 1 := cmpf .olt main_v0 main_v1
  let main_c : IVec S_ 1 := constantI S_ 1 1#1
  let main_v3 : IVec S_ 1 := (fun x v => Host.reduce IntOp.andi x v reducesTo_S1x4096x3072_S_d0_1_2 h_S_) main_v2 main_c
  let main_v4 : FVec F S48x3072 .f32 := Host.absf main_arg2
  let main_cst_0 : FVec F S_ .f32 := constant S_ .f32 0x7F800000#32
  let main_v5 : FVec F S48x3072 .f32 := broadcastInDim S48x3072 ![] bcast_S_S48x3072 main_cst_0
  let main_v6 : IVec S48x3072 1 := cmpf .olt main_v4 main_v5
  let main_c_1 : IVec S_ 1 := constantI S_ 1 1#1
  let main_v7 : IVec S_ 1 := (fun x v => Host.reduce IntOp.andi x v reducesTo_S48x3072_S_d0_1 h_S_) main_v6 main_c_1
  let main_v8 : IVec S_ 1 := andi main_v3 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S3072x32 .f32 := Host.absf main_arg4
  let main_cst_4 : FVec F S_ .f32 := constant S_ .f32 0x7F800000#32
  let main_v15 : FVec F S3072x32 .f32 := broadcastInDim S3072x32 ![] bcast_S_S3072x32 main_cst_4
  let main_v16 : IVec S3072x32 1 := cmpf .olt main_v14 main_v15
  fn_part1 (F := F) main_arg5 main_arg6 main_v13 main_v16
-- ==== Kernel.lean ====
abbrev S1x4096x3072 : Shape := ⟨3, ![1, 4096, 3072]⟩
abbrev S3072x3072 : Shape := ⟨2, ![3072, 3072]⟩
abbrev S48x3072 : Shape := ⟨2, ![48, 3072]⟩
abbrev S3072 : Shape := ⟨1, ![3072]⟩
abbrev S3072x32 : Shape := ⟨2, ![3072, 32]⟩
abbrev S4096x3072 : Shape := ⟨2, ![4096, 3072]⟩
abbrev S4096x32 : Shape := ⟨2, ![4096, 32]⟩
abbrev S256x3072 : Shape := ⟨2, ![256, 3072]⟩
abbrev S256x32 : Shape := ⟨2, ![256, 32]⟩
abbrev S1x3072 : Shape := ⟨2, ![1, 3072]⟩
abbrev S256x48x64 : Shape := ⟨3, ![256, 48, 64]⟩
abbrev S256x48 : Shape := ⟨2, ![256, 48]⟩
abbrev S256x48x1 : Shape := ⟨3, ![256, 48, 1]⟩
abbrev S512x3072 : Shape := ⟨2, ![512, 3072]⟩
abbrev S48x512 : Shape := ⟨2, ![48, 512]⟩
abbrev S512x32 : Shape := ⟨2, ![512, 32]⟩
abbrev S512 : Shape := ⟨1, ![512]⟩
abbrev S512x512 : Shape := ⟨2, ![512, 512]⟩
abbrev S512x48x64 : Shape := ⟨3, ![512, 48, 64]⟩
abbrev S512x48 : Shape := ⟨2, ![512, 48]⟩
abbrev S512x48x1 : Shape := ⟨3, ![512, 48, 1]⟩
abbrev S1x512 : Shape := ⟨2, ![1, 512]⟩

abbrev nBuf : Space → Nat
  | .hbm => 12
  | .vmem => 22
  | .smem => 0
  | _ => 0

abbrev bufTy : (tb : Table) → Fin (tcTables nBuf tb) → BufTy
  | .hbm, ⟨0, _⟩ => ⟨S1x4096x3072, .f32⟩
  | .hbm, ⟨1, _⟩ => ⟨S3072x3072, .i32⟩
  | .hbm, ⟨2, _⟩ => ⟨S48x3072, .f32⟩
  | .hbm, ⟨3, _⟩ => ⟨S3072, .f32⟩
  | .hbm, ⟨4, _⟩ => ⟨S3072x32, .f32⟩
  | .hbm, ⟨5, _⟩ => ⟨S3072x32, .f32⟩
  | .hbm, ⟨6, _⟩ => ⟨S3072, .f32⟩
  | .hbm, ⟨7, _⟩ => ⟨S4096x3072, .f32⟩
  | .hbm, ⟨8, _⟩ => ⟨S4096x3072, .f32⟩
  | .hbm, ⟨9, _⟩ => ⟨S4096x32, .f32⟩
  | .hbm, ⟨10, _⟩ => ⟨S4096x3072, .f32⟩
  | .hbm, ⟨11, _⟩ => ⟨S1x4096x3072, .f32⟩
  | .local _ .vmem, ⟨0, _⟩ => ⟨S256x3072, .f32⟩
  | .local _ .vmem, ⟨1, _⟩ => ⟨S256x3072, .f32⟩
  | .local _ .vmem, ⟨2, _⟩ => ⟨S3072, .f32⟩
  | .local _ .vmem, ⟨3, _⟩ => ⟨S3072x32, .f32⟩
  | .local _ .vmem, ⟨4, _⟩ => ⟨S256x3072, .f32⟩
  | .local _ .vmem, ⟨5, _⟩ => ⟨S256x3072, .f32⟩
  | .local _ .vmem, ⟨6, _⟩ => ⟨S256x32, .f32⟩
  | .local _ .vmem, ⟨7, _⟩ => ⟨S256x32, .f32⟩
  | .local _ .vmem, ⟨8, _⟩ => ⟨S512x3072, .f32⟩
  | .local _ .vmem, ⟨9, _⟩ => ⟨S512x3072, .f32⟩
  | .local _ .vmem, ⟨10, _⟩ => ⟨S512x3072, .i32⟩
  | .local _ .vmem, ⟨11, _⟩ => ⟨S512x3072, .i32⟩
  | .local _ .vmem, ⟨12, _⟩ => ⟨S48x512, .f32⟩
  | .local _ .vmem, ⟨13, _⟩ => ⟨S48x512, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | .local _ .vmem, ⟨17, _⟩ => ⟨S512x32, .f32⟩
  | .local _ .vmem, ⟨18, _⟩ => ⟨S512, .f32⟩
  | .local _ .vmem, ⟨19, _⟩ => ⟨S512, .f32⟩
  | .local _ .vmem, ⟨20, _⟩ => ⟨S512x512, .f32⟩
  | .local _ .vmem, ⟨21, _⟩ => ⟨S512x512, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x3072 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S48x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S1x4096x3072_S4096x3072 : S1x4096x3072.ShapeCasts S4096x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  inb_S3072x32_S3072x32_0_0 : ∀ a, (![0, 0] : Fin 2 → Nat) a + S3072x32.size a ≤ S3072x32.size a
  h_S3072x32 : 0 < S3072x32.numel
  inb_S256x32_S256x32_0_0 : ∀ a, (![0, 0] : Fin 2 → Nat) a + S256x32.size a ≤ S256x32.size a
  h_S256x32 : 0 < S256x32.numel
  shapeCasts_S256x3072_S256x48x64 : S256x3072.ShapeCasts S256x48x64
  reduces_S256x48x64_S256x48 : S256x48x64.Reduces [2] S256x48
  shapeCasts_S256x48_S256x48x1 : S256x48.ShapeCasts S256x48x1
  broadcasts_S256x48x1_S256x48x64 : S256x48x1.Broadcasts S256x48x64
  shapeCasts_S256x48x64_S256x3072 : S256x48x64.ShapeCasts S256x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S48x512_S48x512_0_0 : ∀ a, (![0, 0] : Fin 2 → Nat) a + S48x512.size a ≤ S48x512.size a
  h_S48x512 : 0 < S48x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512_S512_0 : ∀ a, (![0] : Fin 1 → Nat) a + S512.size a ≤ S512.size a
  h_S512 : 0 < S512.numel
  shapeCasts_S512x3072_S512x48x64 : S512x3072.ShapeCasts S512x48x64
  transposes_S48x512_p1_0_S512x48 : S48x512.Transposes [1, 0] S512x48
  shapeCasts_S512x48_S512x48x1 : S512x48.ShapeCasts S512x48x1
  broadcasts_S512x48x1_S512x48x64 : S512x48x1.Broadcasts S512x48x64
  shapeCasts_S512x48x64_S512x3072 : S512x48x64.ShapeCasts S512x3072
  bitsLt_bf16_f32 : FTy.bits .bf16 < FTy.bits .f32
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S4096x3072_S1x4096x3072 : S4096x3072.ShapeCasts S1x4096x3072
  dot_S256x3072_S3072x32_S256x32_1_0_0_1_n_n_wf : DotDims.WF S256x3072 S3072x32 S256x32 [1] [0] [0] [1] [] []
  dot_S512x3072_S512x3072_S512x512_1_1_0_0_n_n_wf : DotDims.WF S512x3072 S512x3072 S512x512 [1] [1] [0] [0] [] []
  dot_S512x32_S512x32_S512x512_1_1_0_0_n_n_wf : DotDims.WF S512x32 S512x32 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .f32 = 32 ∨ (Rect.block (s := S4096x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072.size a ≤ S3072.size a
  hwx0_1 : ∀ i : grid0.Coords, EltTy.bits .f32 = 32 ∨ (Rect.block (s := S3072) S3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x32.size a ≤ S3072x32.size a
  hwx0_2 : ∀ i : grid0.Coords, EltTy.bits .f32 = 32 ∨ (Rect.block (s := S3072x32) S3072x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S4096x3072.size a
  hwx0_3 : ∀ i : grid0.Coords, EltTy.bits .f32 = 32 ∨ (Rect.block (s := S4096x3072) S256x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S4096x32.size a
  hwx0_4 : ∀ i : grid0.Coords, EltTy.bits .f32 = 32 ∨ (Rect.block (s := S4096x32) S256x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3072.size a ≤ S4096x3072.size a
  hwx1_0 : ∀ i : grid1.Coords, EltTy.bits .f32 = 32 ∨ (Rect.block (s := S4096x3072) S512x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x3072.size a ≤ S3072x3072.size a
  hwx1_1 : ∀ i : grid1.Coords, EltTy.bits .i32 = 32 ∨ (Rect.block (s := S3072x3072) S512x3072.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S48x512.size a ≤ S48x3072.size a
  hwx1_2 : ∀ i : grid1.Coords, EltTy.bits .f32 = 32 ∨ (Rect.block (s := S48x3072) S48x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S3072x32.size a
  hwx1_3 : ∀ i : grid1.Coords, EltTy.bits .f32 = 32 ∨ (Rect.block (s := S3072x32) S512x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x32.size a ≤ S4096x32.size a
  hwx1_4 : ∀ i : grid1.Coords, EltTy.bits .f32 = 32 ∨ (Rect.block (s := S4096x32) S512x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S3072.size a
  hwx1_5 : ∀ i : grid1.Coords, EltTy.bits .f32 = 32 ∨ (Rect.block (s := S3072) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x3072.size a
  hwx1_6 : ∀ i : grid1.Coords, EltTy.bits .f32 = 32 ∨ (Rect.block (s := S4096x3072) S512x512.size (cc1_transform_6 i) (hinb1_6 i)).WholeWords (EltTy.packing .f32)

variable [Facts₀]

def dot_S256x3072_S3072x32_S256x32_1_0_0_1_n_n : DotDims S256x3072 S3072x32 S256x32 where
  lhsContracting := [1]
  rhsContracting := [0]
  lhsNonContracting := [0]
  rhsNonContracting := [1]
  lhsBatch := []
  rhsBatch := []
  wf := dot_S256x3072_S3072x32_S256x32_1_0_0_1_n_n_wf
def dot_S512x3072_S512x3072_S512x512_1_1_0_0_n_n : DotDims S512x3072 S512x3072 S512x512 where
  lhsContracting := [1]
  rhsContracting := [1]
  lhsNonContracting := [0]
  rhsNonContracting := [0]
  lhsBatch := []
  rhsBatch := []
  wf := dot_S512x3072_S512x3072_S512x512_1_1_0_0_n_n_wf
def dot_S512x32_S512x32_S512x512_1_1_0_0_n_n : DotDims S512x32 S512x32 S512x512 where
  lhsContracting := [1]
  rhsContracting := [1]
  lhsNonContracting := [0]
  rhsNonContracting := [0]
  lhsBatch := []
  rhsBatch := []
  wf := dot_S512x32_S512x32_S512x512_1_1_0_0_n_n_wf

abbrev win0_0 : Pipeline.Window sig grid0 :=
  Pipeline.Window.ofSpec (Memref.whole main_v0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3072x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x3072.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S512x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S48x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S512x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1x4096x3072 : Shape := ⟨3, ![1, 4096, 3072]⟩
abbrev S3072x3072 : Shape := ⟨2, ![3072, 3072]⟩
abbrev S48x3072 : Shape := ⟨2, ![48, 3072]⟩
abbrev S3072 : Shape := ⟨1, ![3072]⟩
abbrev S3072x32 : Shape := ⟨2, ![3072, 32]⟩
abbrev S4096x3072 : Shape := ⟨2, ![4096, 3072]⟩
abbrev S1x3072 : Shape := ⟨2, ![1, 3072]⟩
abbrev S4096x32 : Shape := ⟨2, ![4096, 32]⟩
abbrev S4096x48x64 : Shape := ⟨3, ![4096, 48, 64]⟩
abbrev S_ : Shape := ⟨0, ![]⟩
abbrev S4096x48 : Shape := ⟨2, ![4096, 48]⟩
abbrev S4096x48x1 : Shape := ⟨3, ![4096, 48, 1]⟩
abbrev S3072x48x64 : Shape := ⟨3, ![3072, 48, 64]⟩
abbrev S3072x48 : Shape := ⟨2, ![3072, 48]⟩
abbrev S3072x48x1 : Shape := ⟨3, ![3072, 48, 1]⟩

abbrev nBuf : Space → Nat
  | .hbm => 54
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S3072x3072, .i32⟩
  | .hbm, ⟨2, _⟩ => ⟨S48x3072, .f32⟩
  | .hbm, ⟨3, _⟩ => ⟨S3072, .f32⟩
  | .hbm, ⟨4, _⟩ => ⟨S3072x32, .f32⟩
  | .hbm, ⟨5, _⟩ => ⟨S3072x32, .f32⟩
  | .hbm, ⟨6, _⟩ => ⟨S3072, .f32⟩
  | .hbm, ⟨7, _⟩ => ⟨S4096x3072, .f32⟩
  | .hbm, ⟨8, _⟩ => ⟨S1x3072, .f32⟩
  | .hbm, ⟨9, _⟩ => ⟨S4096x3072, .f32⟩
  | .hbm, ⟨10, _⟩ => ⟨S4096x3072, .f32⟩
  | .hbm, ⟨11, _⟩ => ⟨S4096x32, .f32⟩
  | .hbm, ⟨12, _⟩ => ⟨S4096x48x64, .f32⟩
  | .hbm, ⟨13, _⟩ => ⟨S4096x48x64, .f32⟩
  | .hbm, ⟨14, _⟩ => ⟨S_, .f32⟩
  | .hbm, ⟨15, _⟩ => ⟨S4096x48, .f32⟩
  | .hbm, ⟨16, _⟩ => ⟨S4096x48x1, .f32⟩
  | .hbm, ⟨17, _⟩ => ⟨S_, .f32⟩
  | .hbm, ⟨18, _⟩ => ⟨S4096x48x1, .f32⟩
  | .hbm, ⟨19, _⟩ => ⟨S4096x48x1, .f32⟩
  | .hbm, ⟨20, _⟩ => ⟨S_, .f32⟩
  | .hbm, ⟨21, _⟩ => ⟨S4096x48x1, .f32⟩
  | .hbm, ⟨22, _⟩ => ⟨S4096x48x1, .f32⟩
  | .hbm, ⟨23, _⟩ => ⟨S4096x48x64, .f32⟩
  | .hbm, ⟨24, _⟩ => ⟨S4096x48x64, .f32⟩
  | .hbm, ⟨25, _⟩ => ⟨S4096x48x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x48x64, .f32⟩
  | .hbm, ⟨30, _⟩ => ⟨S4096x48x64, .f32⟩
  | .hbm, ⟨31, _⟩ => ⟨S_, .f32⟩
  | .hbm, ⟨32, _⟩ => ⟨S4096x48x64, .f32⟩
  | .hbm, ⟨33, _⟩ => ⟨S4096x48x64, .f32⟩
  | .hbm, ⟨34, _⟩ => ⟨S4096x48x64, .f32⟩
  | .hbm, ⟨35, _⟩ => ⟨S4096x48x64, .f32⟩
  | .hbm, ⟨36, _⟩ => ⟨S4096x3072, .f32⟩
  | .hbm, ⟨37, _⟩ => ⟨S3072x3072, .f32⟩
  | .hbm, ⟨38, _⟩ => ⟨S_, .f32⟩
  | .hbm, ⟨39, _⟩ => ⟨S3072x3072, .f32⟩
  | .hbm, ⟨40, _⟩ => ⟨S3072x3072, .f32⟩
  | .hbm, ⟨41, _⟩ => ⟨S3072x48x64, .f32⟩
  | .hbm, ⟨42, _⟩ => ⟨S3072x48, .f32⟩
  | .hbm, ⟨43, _⟩ => ⟨S3072x48x1, .f32⟩
  | .hbm, ⟨44, _⟩ => ⟨S3072x48x64, .f32⟩
  | .hbm, ⟨45, _⟩ => ⟨S3072x48x64, .f32⟩
  | .hbm, ⟨46, _⟩ => ⟨S3072x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S1x3072, .f32⟩
  | .hbm, ⟨51, _⟩ => ⟨S4096x3072, .f32⟩
  | .hbm, ⟨52, _⟩ => ⟨S4096x3072, .f32⟩
  | .hbm, ⟨53, _⟩ => ⟨S1x4096x3072, .f32⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  shapeCasts_S1x4096x3072_S4096x3072 : S1x4096x3072.ShapeCasts S4096x3072
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  shapeCasts_S4096x3072_S4096x48x64 : S4096x3072.ShapeCasts S4096x48x64
  reducesTo_S4096x48x64_S4096x48_d2 : S4096x48x64.ReducesTo [2] S4096x48
  h_S_ : 0 < S_.numel
  bcast_S4096x48_S4096x48x1_0_1 : S4096x48.BroadcastsInDim S4096x48x1 (![0, 1] : Fin 2 → Fin S4096x48x1.rank)
  bcast_S_S4096x48x1 : S_.BroadcastsInDim S4096x48x1 (![] : Fin 0 → Fin S4096x48x1.rank)
  bcast_S4096x48x1_S4096x48x64_0_1_2 : S4096x48x1.BroadcastsInDim S4096x48x64 (![0, 1, 2] : Fin 3 → Fin S4096x48x64.rank)
  bcast_S_S4096x48x64 : S_.BroadcastsInDim S4096x48x64 (![] : Fin 0 → Fin S4096x48x64.rank)
  shapeCasts_S4096x48x64_S4096x3072 : S4096x48x64.ShapeCasts S4096x3072
  bcast_S_S3072x3072 : S_.BroadcastsInDim S3072x3072 (![] : Fin 0 → Fin S3072x3072.rank)
  shapeCasts_S3072x3072_S3072x48x64 : S3072x3072.ShapeCasts S3072x48x64
  transposes_S48x3072_S3072x48_1_0 : S48x3072.Transposes [1, 0] S3072x48
  bcast_S3072x48_S3072x48x1_0_1 : S3072x48.BroadcastsInDim S3072x48x1 (![0, 1] : Fin 2 → Fin S3072x48x1.rank)
  bcast_S3072x48x1_S3072x48x64_0_1_2 : S3072x48x1.BroadcastsInDim S3072x48x64 (![0, 1, 2] : Fin 3 → Fin S3072x48x64.rank)
  shapeCasts_S3072x48x64_S3072x3072 : S3072x48x64.ShapeCasts S3072x3072
  shapeCasts_S4096x3072_S1x4096x3072 : S4096x3072.ShapeCasts S1x4096x3072
  dot_S4096x3072_S3072x32_S4096x32_1_0_0_1_n_n_wf : DotDims.WF S4096x3072 S3072x32 S4096x32 [1] [0] [0] [1] [] []
  dot_S4096x3072_S3072x3072_S4096x3072_1_1_0_0_n_n_wf : DotDims.WF S4096x3072 S3072x3072 S4096x3072 [1] [1] [0] [0] [] []
  dot_S4096x32_S3072x32_S4096x3072_1_1_0_0_n_n_wf : DotDims.WF S4096x32 S3072x32 S4096x3072 [1] [1] [0] [0] [] []

variable [Facts₀]

def dot_S4096x3072_S3072x32_S4096x32_1_0_0_1_n_n : DotDims S4096x3072 S3072x32 S4096x32 where
  lhsContracting := [1]
  rhsContracting := [0]
  lhsNonContracting := [0]
  rhsNonContracting := [1]
  lhsBatch := []
  rhsBatch := []
  wf := dot_S4096x3072_S3072x32_S4096x32_1_0_0_1_n_n_wf
def dot_S4096x3072_S3072x3072_S4096x3072_1_1_0_0_n_n : DotDims S4096x3072 S3072x3072 S4096x3072 where
  lhsContracting := [1]
  rhsContracting := [1]
  lhsNonContracting := [0]
  rhsNonContracting := [0]
  lhsBatch := []
  rhsBatch := []
  wf := dot_S4096x3072_S3072x3072_S4096x3072_1_1_0_0_n_n_wf
def dot_S4096x32_S3072x32_S4096x3072_1_1_0_0_n_n : DotDims S4096x32 S3072x32 S4096x3072 where
  lhsContracting := [1]
  rhsContracting := [1]
  lhsNonContracting := [0]
  rhsNonContracting := [0]
  lhsBatch := []
  rhsBatch := []
  wf := dot_S4096x32_S3072x32_S4096x3072_1_1_0_0_n_n_wf

class Facts : Prop extends Facts₀ where

variable [Facts]
-- ==== Proof.LibGroupCast.lean ====
/-
  An axis of N = G · L entries cut into G groups of L, and the groups put back side by side, read at an index, for any
  number of rows R.

  In row-major order entry (r, g, l) of an array [R, G, L] and entry (r, g · L + l) of an array [R, N] sit at the same
  position, r · N + g · L + l. So the array [R, N] recast as [R, G, L] reads (r, g, l) at (r, g · L + l), and the array
  [R, G, L] recast as [R, N] reads (r, c) at (r, c / L, c % L).
-/
import Idealize.ShloMosaic.Lib.Pipeline.Value
import Idealize.ShloMosaic.Lib.ValueIdx

noncomputable section

namespace Cert.LibGroupCast

open Idealize.ShloMosaic Idealize.ShloMosaic.ValueIdx

variable {R G L N : Nat} {α : Type}

/-- A row cut into groups: entry (r, g, l) is entry g · L + l of row r. -/
theorem shapeCast_groups_apply (hN : N = G * L) (v : (⟨2, ![R, N]⟩ : Shape).Idx → α)
    (h : (⟨2, ![R, N]⟩ : Shape).ShapeCasts ⟨3, ![R, G, L]⟩) (r : Fin R) (g : Fin G) (l : Fin L) (c : Fin N)
    (hc : c.val = g.val * L + l.val) :
    shapeCast ⟨3, ![R, G, L]⟩ v h (ix3 r g l) = v (ix2 r c) := by
  refine shapeCast_apply v h _ _ ?_
  rw [Shape.rowMajor_val_three, Shape.rowMajor_val_two]
  show r.val * N + c.val = (r.val * G + g.val) * L + l.val
  rw [hc, hN, Nat.add_mul, Nat.mul_assoc, Nat.add_assoc]

/-- Groups put back side by side: entry c of row r is lane c % L of group c / L. -/
theorem shapeCast_ungroup_apply (hN : N = G * L) (v : (⟨3, ![R, G, L]⟩ : Shape).Idx → α)
    (h : (⟨3, ![R, G, L]⟩ : Shape).ShapeCasts ⟨2, ![R, N]⟩) (r : Fin R) (c : Fin N) (g : Fin G) (l : Fin L)
    (hg : g.val = c.val / L) (hl : l.val = c.val % L) :
    shapeCast ⟨2, ![R, N]⟩ v h (ix2 r c) = v (ix3 r g l) := by
  refine shapeCast_apply v h _ _ ?_
  rw [Shape.rowMajor_val_three, Shape.rowMajor_val_two]
  show (r.val * G + g.val) * L + l.val = r.val * N + c.val
  rw [hg, hl, Nat.add_mul, Nat.mul_assoc, Nat.add_assoc, Nat.div_add_mod', ← hN]

end Cert.LibGroupCast

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«105690_j33990371180875_1_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.Spec.lean ====
/-
  A linear layer with 4-bit weights and 4-bit activations and a low-rank correction, as functions of indices over the
  extended reals.

  The 3072 input channels are cut into 48 groups of 64 consecutive channels: channel c lies in group c / 64 at lane
  c % 64, and lane l of group g is channel 64 g + l.

  For one token (row r) the activations are first smoothed, xs[r, c] = x[r, c] / s[c]. The low-rank hidden state is
  the product with the down projection, lora[r, q] = Σ_c xs[r, c] · pd[c, q]. Each group of 64 smoothed activations is
  quantised on its own: with a = (max_l |row l|) / 7 the step, the code of lane l is round-to-even(row l / max(a, ε))
  clipped to [-8, 7], and the dequantised activation is code · a.

  The weight of output channel n at input channel c is (code[n, c] - 8) · scale[c / 64, n], the code read as a signed
  integer. The layer's output is
      out[m, n] = (Σ_c xdq[m, c] · w[n, c] + Σ_q lora[m, q] · pu[n, q]) + bias[n].
-/
import Mathlib
import Idealize.ShloMosaic.PureOps.Ideal
import Idealize.ShloMosaic.Lib.ValueIdx
import proofs.«105690_j33990371180875_1_alg».proof.Proof.LibSoftmaxRow

noncomputable section

open scoped BigOperators

namespace Cert.QuantLinear

open Idealize.ShloMosaic Idealize.ShloMosaic.ValueIdx Cert.LibSoftmaxRow

/-- Lane l of group g is channel 64 g + l. -/
def col (g : Fin 48) (l : Fin 64) : Fin 3072 := ⟨g.val * 64 + l.val, by have := g.isLt; have := l.isLt; omega⟩
/-- The group of channel c. -/
def grp (c : Fin 3072) : Fin 48 := ⟨c.val / 64, by have := c.isLt; omega⟩
/-- The lane of channel c inside its group. -/
def lane (c : Fin 3072) : Fin 64 := ⟨c.val % 64, by omega⟩

theorem col_val (g : Fin 48) (l : Fin 64) : (col g l).val = g.val * 64 + l.val := rfl
theorem grp_val (c : Fin 3072) : (grp c).val = c.val / 64 := rfl
theorem lane_val (c : Fin 3072) : (lane c).val = c.val % 64 := rfl

/-- The quantisation step of one group: its largest magnitude divided by 7. -/
def step (row : Fin 64 → EReal) : EReal :=
  Ideal.div (rowMax fun k => max (row k) (-(row k))) (Ideal.ofBits .f32 0x40E00000#32)

/-- The integer code of lane l: the lane divided by the step (never less than ε), rounded to even, clipped to [-8, 7]. -/
def code (row : Fin 64 → EReal) (l : Fin 64) : EReal :=
  min (Ideal.ofBits .f32 0x40E00000#32) (max (Ideal.ofBits .f32 0xC1000000#32)
    (Ideal.liftRound Ideal.roundHalfEven (Ideal.div (row l) (max (step row) (Ideal.ofBits .f32 0x322BCC77#32)))))

/-- The dequantised lane: code times step. -/
def dequant (row : Fin 64 → EReal) (l : Fin 64) : EReal := code row l * step row

variable {R : Nat}

/-- Smoothed activation of token r at channel c. -/
def xsAt (x : (⟨2, ![R, 3072]⟩ : Shape).Idx → EReal) (s : (⟨1, ![3072]⟩ : Shape).Idx → EReal) (r : Fin R) (c : Fin 3072) : EReal :=
  Ideal.div (x (ix2 r c)) (s (ix1 c))

/-- The low-rank hidden state of token r at rank q. -/
def loraAt (x : (⟨2, ![R, 3072]⟩ : Shape).Idx → EReal) (s : (⟨1, ![3072]⟩ : Shape).Idx → EReal)
    (pd : (⟨2, ![3072, 32]⟩ : Shape).Idx → EReal) (r : Fin R) (q : Fin 32) : EReal :=
  ∑ k : Fin 3072, xsAt x s r k * pd (ix2 k q)

/-- The dequantised activation of token r at channel c. -/
def xdqAt (x : (⟨2, ![R, 3072]⟩ : Shape).Idx → EReal) (s : (⟨1, ![3072]⟩ : Shape).Idx → EReal) (r : Fin R) (c : Fin 3072) : EReal :=
  dequant (fun l => xsAt x s r (col (grp c) l)) (lane c)

/-- The low-rank hidden states as an array. -/
def loraArr (x : (⟨2, ![R, 3072]⟩ : Shape).Idx → EReal) (s : (⟨1, ![3072]⟩ : Shape).Idx → EReal)
    (pd : (⟨2, ![3072, 32]⟩ : Shape).Idx → EReal) : (⟨2, ![R, 32]⟩ : Shape).Idx → EReal :=
  fun i => loraAt x s pd (i 0) (i 1)

/-- The dequantised activations as an array. -/
def xdqArr (x : (⟨2, ![R, 3072]⟩ : Shape).Idx → EReal) (s : (⟨1, ![3072]⟩ : Shape).Idx → EReal) :
    (⟨2, ![R, 3072]⟩ : Shape).Idx → EReal :=
  fun i => xdqAt x s (i 0) (i 1)

variable {N : Nat}

/-- The dequantised weight of output channel n at input channel c. -/
def wAt (qw : (⟨2, ![N, 3072]⟩ : Shape).Idx → BitVec 32) (ws : (⟨2, ![48, N]⟩ : Shape).Idx → EReal) (n : Fin N) (c : Fin 3072) : EReal :=
  (FloatOps.sitofp (F := Ideal) .f32 (qw (ix2 n (col (grp c) (lane c)))) - Ideal.ofBits .f32 0x41000000#32) * ws (ix2 (grp c) n)

/-- One entry of the layer's output from the dequantised activations and the low-rank hidden states. -/
def outAt (xdq : (⟨2, ![R, 3072]⟩ : Shape).Idx → EReal) (lora : (⟨2, ![R, 32]⟩ : Shape).Idx → EReal)
    (qw : (⟨2, ![N, 3072]⟩ : Shape).Idx → BitVec 32) (ws : (⟨2, ![48, N]⟩ : Shape).Idx → EReal)
    (pu : (⟨2, ![N, 32]⟩ : Shape).Idx → EReal) (bias : (⟨1, ![N]⟩ : Shape).Idx → EReal) (m : Fin R) (n : Fin N) : EReal :=
  (∑ k : Fin 3072, xdq (ix2 m k) * wAt qw ws n k + ∑ q : Fin 32, lora (ix2 m q) * pu (ix2 n q)) + bias (ix1 n)

/-- The layer's output as an array. -/
def outArr (xdq : (⟨2, ![R, 3072]⟩ : Shape).Idx → EReal) (lora : (⟨2, ![R, 32]⟩ : Shape).Idx → EReal)
    (qw : (⟨2, ![N, 3072]⟩ : Shape).Idx → BitVec 32) (ws : (⟨2, ![48, N]⟩ : Shape).Idx → EReal)
    (pu : (⟨2, ![N, 32]⟩ : Shape).Idx → EReal) (bias : (⟨1, ![N]⟩ : Shape).Idx → EReal) : (⟨2, ![R, N]⟩ : Shape).Idx → EReal :=
  fun i => outAt xdq lora qw ws pu bias (i 0) (i 1)

end Cert.QuantLinear

end
-- ==== Proof.Layout.lean ====
/-
  The two recasts between a row of 3072 channels and its 48 groups of 64 lanes, read at an index, for any number of rows.

  In row-major order entry (r, g, l) of an array [R, 48, 64] and entry (r, 64 g + l) of an array [R, 3072] sit at the same
  position, r · 3072 + 64 g + l. So the array [R, 3072] recast as [R, 48, 64] reads (r, g, l) at (r, 64 g + l), and the
  array [R, 48, 64] recast as [R, 3072] reads (r, c) at (r, c / 64, c % 64): the general statement for N = G · L at
  G = 48, L = 64.
-/
import proofs.«105690_j33990371180875_1_alg».proof.Proof.LibGroupCast
import proofs.«105690_j33990371180875_1_alg».proof.Proof.Spec

noncomputable section

namespace Cert.QuantLinear

open Idealize.ShloMosaic Idealize.ShloMosaic.ValueIdx

variable {R : Nat} {α : Type}

/-- A row of channels cut into groups: entry (r, g, l) is channel 64 g + l of row r. -/
theorem shapeCast_split_apply (v : (⟨2, ![R, 3072]⟩ : Shape).Idx → α)
    (h : (⟨2, ![R, 3072]⟩ : Shape).ShapeCasts ⟨3, ![R, 48, 64]⟩) (r : Fin R) (g : Fin 48) (l : Fin 64) :
    shapeCast ⟨3, ![R, 48, 64]⟩ v h (ix3 r g l) = v (ix2 r (col g l)) :=
  Cert.LibGroupCast.shapeCast_groups_apply (G := 48) (L := 64) rfl v h r g l (col g l) rfl

/-- Groups put back side by side: channel c of row r is lane c % 64 of group c / 64. -/
theorem shapeCast_merge_apply (v : (⟨3, ![R, 48, 64]⟩ : Shape).Idx → α)
    (h : (⟨3, ![R, 48, 64]⟩ : Shape).ShapeCasts ⟨2, ![R, 3072]⟩) (r : Fin R) (c : Fin 3072) :
    shapeCast ⟨2, ![R, 3072]⟩ v h (ix2 r c) = v (ix3 r (grp c) (lane c)) :=
  Cert.LibGroupCast.shapeCast_ungroup_apply (G := 48) (L := 64) rfl v h r c (grp c) (lane c) rfl rfl

end Cert.QuantLinear

end
-- ==== Proof.LibAxis2.lean ====
/-
  An array `[A, R, C]` reduced along its last axis, as a kernel and as the host compute it, and the two layout steps
  that carry a per-row result back over the row.

  Over the extended reals: the kernel's lane maximum from the word of -∞ and the host's reduce with a maximum body from
  the same word are both the fold of `max` over the `C` entries of row `(a, r)`; the kernel's lane sum and the host's sum
  from zero are both the plain sum of that row's entries. A result `[A, R]` recast as `[A, R, 1]` reads `(a, r)` at
  `(a, r, 0)`, and `[A, R, 1]` broadcast along the last axis to `[A, R, D]` reads `(a, r, 0)` at every `(a, r, d)`.
-/
import Mathlib
import Idealize.ShloMosaic.PureOps.Ideal
import Idealize.ShloMosaic.PureOps.Ideal.Laws
import Idealize.ShloMosaic.Lib.Pipeline.Value
import Idealize.ShloMosaic.Lib.ValueIdx
import proofs.«105690_j33990371180875_1_alg».proof.Proof.LibSoftmaxRow

noncomputable section

open scoped BigOperators

namespace Cert.LibAxis2

open Idealize.ShloMosaic Idealize.ShloMosaic.ValueIdx Cert.LibSoftmaxRow

variable {A R C D : Nat}

/-- The reduced index `(a, r)` with lane `k` put back on the last axis is `(a, r, k)`. -/
theorem lift_last (h : (⟨3, ![A, R, C]⟩ : Shape).Reduces [2] (⟨2, ![A, R]⟩ : Shape)) (a : Fin A) (r : Fin R)
    (k : Fin ((⟨3, ![A, R, C]⟩ : Shape).size 2)) : h.lift (ix2 a r) k = ix3 a r (⟨k.val, k.isLt⟩ : Fin C) := by
  funext c; apply Fin.ext
  fin_cases c <;> rfl

/-- The kernel's lane maximum of row `(a, r)`. -/
theorem multiReduction_max_last (src : FVec Ideal ⟨3, ![A, R, C]⟩ .f32)
    (h : (⟨3, ![A, R, C]⟩ : Shape).Reduces [2] (⟨2, ![A, R]⟩ : Shape)) (hφ : FKind.Formats .f32)
    (hacc : (0xFF800000#32 : BitVec 32) = FKind.maximumf.neutral .f32 hφ) (a : Fin A) (r : Fin R) :
    multiReduction .maximumf [2] (⟨2, ![A, R]⟩ : Shape) src 0xFF800000#32 h hφ hacc (ix2 a r)
      = rowMax fun k : Fin C => src (ix3 a r k) := by
  rw [Ideal.multiReduction_maximumf_single src _ h hφ hacc (ix2 a r)]
  have hf : (src ∘ h.lift (ix2 a r)) = fun k : Fin C => src (ix3 a r k) :=
    funext fun k => congrArg src (lift_last h a r k)
  unfold rowMax
  exact congrArg (fun f => Finset.fold max (Ideal.ofBits .f32 0xFF800000#32) f (Finset.univ : Finset (Fin C))) hf

/-- The host's reduce with a maximum body along the last axis, from the word of -∞, at row `(a, r)`. -/
theorem hostReduce_max_last (x : FVec Ideal ⟨3, ![A, R, C]⟩ .f32) (init : (⟨0, ![]⟩ : Shape).Idx → Ideal .f32)
    (hinit : ∀ i, init i = Ideal.ofBits .f32 0xFF800000#32)
    (h' : (⟨3, ![A, R, C]⟩ : Shape).ReducesTo [2] (⟨2, ![A, R]⟩ : Shape))
    (h : (⟨3, ![A, R, C]⟩ : Shape).Reduces [2] (⟨2, ![A, R]⟩ : Shape))
    (hu : 0 < (⟨0, ![]⟩ : Shape).numel) (a : Fin A) (r : Fin R) :
    Host.reduce FloatOps.maximumf x init h' hu (ix2 a r) = rowMax fun k : Fin C => x (ix3 a r k) := by
  rw [Host.reduce_eq_fold_single FloatOps.maximumf x _ h' h hu, hinit]
  have hf : (x ∘ h.lift (ix2 a r)) = fun k : Fin C => x (ix3 a r k) :=
    funext fun k => congrArg x (lift_last h a r k)
  unfold rowMax
  exact congrArg (fun f => Finset.fold max (Ideal.ofBits .f32 0xFF800000#32) f (Finset.univ : Finset (Fin C))) hf

/-- The kernel's lane sum of row `(a, r)`. -/
theorem multiReduction_add_last (src : FVec Ideal ⟨3, ![A, R, C]⟩ .f32)
    (h : (⟨3, ![A, R, C]⟩ : Shape).Reduces [2] (⟨2, ![A, R]⟩ : Shape)) (hφ : FKind.Formats .f32)
    (hacc : (0x00000000#32 : BitVec 32) = FKind.add.neutral .f32 hφ) (a : Fin A) (r : Fin R) :
    multiReduction .add [2] (⟨2, ![A, R]⟩ : Shape) src 0x00000000#32 h hφ hacc (ix2 a r) = ∑ k : Fin C, src (ix3 a r k) := by
  rw [Ideal.multiReduction_add_single src _ h hφ hacc (ix2 a r)]
  refine Finset.sum_congr rfl fun k _ => ?_
  exact congrArg src (lift_last h a r k)

/-- The host's sum along the last axis from zero, at row `(a, r)`. -/
theorem hostReduceAdd_last (x : FVec Ideal ⟨3, ![A, R, C]⟩ .f32) (init : EReal) (hinit : init = 0)
    (h' : (⟨3, ![A, R, C]⟩ : Shape).ReducesTo [2] (⟨2, ![A, R]⟩ : Shape))
    (h : (⟨3, ![A, R, C]⟩ : Shape).Reduces [2] (⟨2, ![A, R]⟩ : Shape)) (a : Fin A) (r : Fin R) :
    Ideal.hostReduceAdd h' x init (ix2 a r) = ∑ k : Fin C, x (ix3 a r k) := by
  rw [Ideal.hostReduceAdd_single h' h, hinit, zero_add]
  refine Finset.sum_congr rfl fun k _ => ?_
  exact congrArg x (lift_last h a r k)

/-- `[A, R]` recast as `[A, R, 1]` reads `(a, r)` at `(a, r, 0)`. -/
theorem shapeCast_keepdims_apply {α : Type} (v : (⟨2, ![A, R]⟩ : Shape).Idx → α)
    (h : (⟨2, ![A, R]⟩ : Shape).ShapeCasts ⟨3, ![A, R, 1]⟩) (a : Fin A) (r : Fin R) :
    shapeCast ⟨3, ![A, R, 1]⟩ v h (ix3 a r (0 : Fin 1)) = v (ix2 a r) := by
  refine shapeCast_apply v h _ _ ?_
  rw [Shape.rowMajor_val_three, Shape.rowMajor_val_two]
  show a.val * R + r.val = (a.val * R + r.val) * 1 + 0
  omega

/-- `[A, R, 1]` broadcast along the last axis to `[A, R, D]` reads `(a, r, 0)` at `(a, r, d)`, when `A, R ≠ 1` or not. -/
theorem broadcastTo_last_apply {α : Type} (v : (⟨3, ![A, R, 1]⟩ : Shape).Idx → α)
    (h : (⟨3, ![A, R, 1]⟩ : Shape).Broadcasts ⟨3, ![A, R, D]⟩) (a : Fin A) (r : Fin R) (d : Fin D) :
    broadcastTo ⟨3, ![A, R, D]⟩ v h (ix3 a r d) = v (ix3 a r (0 : Fin 1)) := by
  refine broadcastTo_apply v h _ _ fun c => ?_
  match c with
  | ⟨0, _⟩ =>
    show a.val = if A = 1 then 0 else a.val
    split
    · next hA => have := a.isLt; omega
    · rfl
  | ⟨1, _⟩ =>
    show r.val = if R = 1 then 0 else r.val
    split
    · next hR => have := r.isLt; omega
    · rfl
  | ⟨2, _⟩ =>
    show 0 = if (1 : Nat) = 1 then 0 else d.val
    rw [if_pos rfl]

end Cert.LibAxis2

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«105690_j33990371180875_1_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.KernelA.lean ====
/-
  What the preparation kernel computes on one block of 256 tokens, entry by entry over the extended reals.

  From a block x0 of 256 rows of activations and the smoothing vector x1 the kernel forms the smoothed block
  xs[p, c] = x0[p, c] / x1[c]; its product with the down projection x2, lora[p, q] = Σ_c xs[p, c] · x2[c, q]; and, group by
  group of 64 channels, the dequantised activations: the group's largest magnitude divided by 7 is the step, the lane
  divided by the step (at least ε) is rounded to even and clipped to [-8, 7], and the result is multiplied by the step.
-/
import proofs.«105690_j33990371180875_1_alg».proof.Proof.Gen.KernelIdeal.Skeleton
import Idealize.ShloMosaic.Lib.ValueLayout
import proofs.«105690_j33990371180875_1_alg».proof.Proof.Layout
import proofs.«105690_j33990371180875_1_alg».proof.Proof.LibAxis2
import proofs.«105690_j33990371180875_1_alg».proof.Proof.LibDotForms

noncomputable section

open scoped BigOperators

namespace Cert.KernelIdeal.Prep

open Cert.KernelIdeal Cert.KernelIdeal.Gen Idealize.ShloMosaic Idealize.ShloMosaic.ValueIdx
open Cert.QuantLinear Cert.LibAxis2 Cert.LibSoftmaxRow Cert.LibDotForms

/-- The smoothed block: entry (p, c) is x0[p, c] / x1[c]. -/
theorem smooth_apply (x0 : Vec Ideal S256x3072 .f32) (x1 : Vec Ideal S3072 .f32) (p : Fin 256) (c : Fin 3072) :
    k0_pay1 (F := Ideal) x0 x1 (ix2 p c) = xsAt x0 x1 p c := by
  unfold k0_pay1 xsAt
  rw [divf_apply, shapeCast_self, broadcastTo_1b_ab_apply, shapeCast_a_1a_apply]

/-- The low-rank hidden state of the block: entry (p, q) is the sum over the channels of xs[p, c] · x2[c, q]. -/
theorem lowrank_apply (x0 : Vec Ideal S256x3072 .f32) (x1 : Vec Ideal S3072 .f32) (x2 : Vec Ideal S3072x32 .f32)
    (p : Fin 256) (q : Fin 32) :
    k0_pay2 (F := Ideal) x0 x1 x2 (ix2 p q) = loraAt x0 x1 x2 p q := by
  unfold k0_pay2 loraAt
  refine (matmul_plain_prec none (k0_pay1 (F := Ideal) x0 x1) x2 p q).trans ?_
  exact Finset.sum_congr rfl fun k _ => by rw [smooth_apply]

/-- Rounding to even, entry by entry. -/
theorem roundeven_apply {s : Shape} (v : FVec Ideal s .f32) (i : s.Idx) :
    roundeven v i = Ideal.liftRound Ideal.roundHalfEven (v i) := rfl

/-- The dequantised block: entry (p, c) is the dequantised lane c % 64 of group c / 64 of the smoothed row p. -/
theorem dequant_apply (x0 : Vec Ideal S256x3072 .f32) (x1 : Vec Ideal S3072 .f32) (p : Fin 256) (c : Fin 3072) :
    k0_pay3 (F := Ideal) x0 x1 (ix2 p c) = xdqAt x0 x1 p c := by
  unfold k0_pay3 xdqAt
  refine (shapeCast_merge_apply _ _ p c).trans ?_
  generalize grp c = g
  generalize lane c = l
  have hy : ∀ l' : Fin 64, shapeCast S256x48x64 (k0_pay1 (F := Ideal) x0 x1) Gen.shapeCasts_S256x3072_S256x48x64 (ix3 p g l')
      = xsAt x0 x1 p (col g l') := fun l' => by
    rw [shapeCast_split_apply, smooth_apply]
  generalize shapeCast S256x48x64 (k0_pay1 (F := Ideal) x0 x1) Gen.shapeCasts_S256x3072_S256x48x64 = y at hy ⊢
  have hmax : multiReduction .maximumf [2] S256x48 (absf y) 0xFF800000#32 Gen.reduces_S256x48x64_S256x48 (.inl rfl) rfl (ix2 p g)
      = rowMax fun k => max (xsAt x0 x1 p (col g k)) (-(xsAt x0 x1 p (col g k))) :=
    (multiReduction_max_last (absf y) Gen.reduces_S256x48x64_S256x48 (.inl rfl) rfl p g).trans
      (congrArg rowMax (funext fun k => by show max (y (ix3 p g k)) (-(y (ix3 p g k))) = _; rw [hy]))
  simp only [mulf_apply, minimumf_apply, maximumf_apply, divf_apply, broadcast_apply, broadcastTo_last_apply,
    shapeCast_keepdims_apply, roundeven_apply, hmax, hy]
  rfl

end Cert.KernelIdeal.Prep

end
-- ==== Proof.RowLocal.lean ====
/-
  Each entry of the layer depends on a few rows only.

  The smoothed, dequantised and low-rank values of a token depend on that token's row of activations and on the
  smoothing vector; an output entry (m, n) depends on row m of the dequantised activations and of the low-rank hidden
  states, and on row n of the weight codes, column n of the weight scales, row n of the up projection and entry n of the
  bias. So two families of arrays that agree on those rows give the same entry — which is how a block of rows cut out
  of an array computes the array's own entries.
-/
import proofs.«105690_j33990371180875_1_alg».proof.Proof.Spec

noncomputable section

open scoped BigOperators

namespace Cert.QuantLinear

open Idealize.ShloMosaic Idealize.ShloMosaic.ValueIdx

variable {R R' N N' : Nat}

theorem xsAt_congr (x : (⟨2, ![R, 3072]⟩ : Shape).Idx → EReal) (x' : (⟨2, ![R', 3072]⟩ : Shape).Idx → EReal)
    (s s' : (⟨1, ![3072]⟩ : Shape).Idx → EReal) (r : Fin R) (r' : Fin R')
    (hx : ∀ k, x (ix2 r k) = x' (ix2 r' k)) (hs : ∀ k, s (ix1 k) = s' (ix1 k)) (c : Fin 3072) :
    xsAt x s r c = xsAt x' s' r' c := by
  unfold xsAt; rw [hx, hs]

theorem xdqAt_congr (x : (⟨2, ![R, 3072]⟩ : Shape).Idx → EReal) (x' : (⟨2, ![R', 3072]⟩ : Shape).Idx → EReal)
    (s s' : (⟨1, ![3072]⟩ : Shape).Idx → EReal) (r : Fin R) (r' : Fin R') (c c' : Fin 3072) (hc : c.val = c'.val)
    (hx : ∀ k, x (ix2 r k) = x' (ix2 r' k)) (hs : ∀ k, s (ix1 k) = s' (ix1 k)) :
    xdqAt x s r c = xdqAt x' s' r' c' := by
  obtain rfl : c = c' := Fin.ext hc
  unfold xdqAt
  simp only [xsAt_congr x x' s s' r r' hx hs]

theorem loraAt_congr (x : (⟨2, ![R, 3072]⟩ : Shape).Idx → EReal) (x' : (⟨2, ![R', 3072]⟩ : Shape).Idx → EReal)
    (s s' : (⟨1, ![3072]⟩ : Shape).Idx → EReal) (pd pd' : (⟨2, ![3072, 32]⟩ : Shape).Idx → EReal)
    (r : Fin R) (r' : Fin R') (q q' : Fin 32) (hq : q.val = q'.val)
    (hx : ∀ k, x (ix2 r k) = x' (ix2 r' k)) (hs : ∀ k, s (ix1 k) = s' (ix1 k))
    (hpd : ∀ k, pd (ix2 k q) = pd' (ix2 k q)) :
    loraAt x s pd r q = loraAt x' s' pd' r' q' := by
  obtain rfl : q = q' := Fin.ext hq
  unfold loraAt
  simp only [xsAt_congr x x' s s' r r' hx hs, hpd]

theorem outAt_congr (xdq : (⟨2, ![R, 3072]⟩ : Shape).Idx → EReal) (xdq' : (⟨2, ![R', 3072]⟩ : Shape).Idx → EReal)
    (lora : (⟨2, ![R, 32]⟩ : Shape).Idx → EReal) (lora' : (⟨2, ![R', 32]⟩ : Shape).Idx → EReal)
    (qw : (⟨2, ![N, 3072]⟩ : Shape).Idx → BitVec 32) (qw' : (⟨2, ![N', 3072]⟩ : Shape).Idx → BitVec 32)
    (ws : (⟨2, ![48, N]⟩ : Shape).Idx → EReal) (ws' : (⟨2, ![48, N']⟩ : Shape).Idx → EReal)
    (pu : (⟨2, ![N, 32]⟩ : Shape).Idx → EReal) (pu' : (⟨2, ![N', 32]⟩ : Shape).Idx → EReal)
    (bias : (⟨1, ![N]⟩ : Shape).Idx → EReal) (bias' : (⟨1, ![N']⟩ : Shape).Idx → EReal)
    (m : Fin R) (m' : Fin R') (n : Fin N) (n' : Fin N')
    (hxdq : ∀ k, xdq (ix2 m k) = xdq' (ix2 m' k)) (hlora : ∀ q, lora (ix2 m q) = lora' (ix2 m' q))
    (hqw : ∀ k, qw (ix2 n k) = qw' (ix2 n' k)) (hws : ∀ g, ws (ix2 g n) = ws' (ix2 g n'))
    (hpu : ∀ q, pu (ix2 n q) = pu' (ix2 n' q)) (hb : bias (ix1 n) = bias' (ix1 n')) :
    outAt xdq lora qw ws pu bias m n = outAt xdq' lora' qw' ws' pu' bias' m' n' := by
  unfold outAt wAt
  simp only [hxdq, hlora, hqw, hws, hpu, hb]

end Cert.QuantLinear

end
-- ==== Proof.Region0.lean ====
/-
  The two arrays the preparation kernel leaves, as functions of the arrays it finds.

  Grid point t of the 16 handles tokens 256 t … 256 t + 255: it reads that block of rows of the activations (and the
  whole smoothing vector and down projection) and writes the same block of rows of the dequantised activations and of
  the low-rank hidden states. Every entry of a written block depends on its own token's row only, so the block is the
  corresponding block of one whole-array function; the 16 blocks tile the 4096 tokens, so after the run the arrays ARE
  those functions of the arrays found at entry.
-/
import proofs.«105690_j33990371180875_1_alg».proof.Proof.Gen.KernelIdeal.Frame
import Idealize.ShloMosaic.Lib.Pipeline.Value
import proofs.«105690_j33990371180875_1_alg».proof.Proof.KernelA
import proofs.«105690_j33990371180875_1_alg».proof.Proof.RowLocal

noncomputable section

namespace Cert.KernelIdeal.Prep

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices at a grid point: the activations' row block moves with the outputs' row blocks, every other
    coordinate is 0, and the row block index is at most 15. -/
theorem block_indices : ∀ t : Fin cfg0.N,
    win0_0.index t (0 : Fin 2) = win0_3.index t (0 : Fin 2) ∧ win0_0.index t (1 : Fin 2) = 0
    ∧ win0_1.index t (0 : Fin 1) = 0
    ∧ win0_2.index t (0 : Fin 2) = 0 ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) ≤ 15 :=
  (by decide +kernel : ∀ t : Fin grid0.N, _)

/-- Every row block is some grid point's. -/
theorem block_onto : ∀ q0 : Fin 16, ∃ t : Fin cfg0.N, win0_3.index t (0 : Fin 2) = q0.val :=
  (by decide +kernel : ∀ q0 : Fin 16, ∃ t : Fin grid0.N, win0_3.index t (0 : Fin 2) = q0.val)

/-- Row p of the activations' block at point t is row 256 · (block index) + p of the array. -/
theorem act_block (c : Dev nD) (t : Fin cfg0.N) (p : Fin 256) (k : Fin 3072) (r : Fin 4096)
    (hr : r.val = win0_3.index t (0 : Fin 2) * 256 + p.val) :
    (iblk0 V c 0 t : Vec Ideal S256x3072 .f32) (ix2 p k) = (V c main_v0 : S4096x3072.Idx → Elt Ideal .f32) (ix2 r k) := by
  obtain ⟨e0, e1, -⟩ := block_indices t
  show V c main_v0 (((cfg0.win 0).blk t).view.emb (ix2 p k)) = V c main_v0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 3072 + 1 * k.val = k.val; omega

/-- The smoothing vector's block at any point is the whole vector. -/
theorem smooth_block (c : Dev nD) (t : Fin cfg0.N) (k : Fin 3072) :
    (iblk0 V c 1 t : Vec Ideal S3072 .f32) (ix1 k) = (V c main_arg3 : S3072.Idx → Elt Ideal .f32) (ix1 k) := by
  obtain ⟨-, -, e2, -⟩ := block_indices t
  show V c main_arg3 (((cfg0.win 1).blk t).view.emb (ix1 k)) = V c main_arg3 (ix1 k)
  refine congrArg _ (funext fun a => Fin.ext ?_)
  match a with
  | ⟨0, _⟩ => show win0_1.index t (0 : Fin 1) * 3072 + 1 * k.val = k.val; omega

/-- The down projection's block at any point is the whole matrix. -/
theorem down_block (c : Dev nD) (t : Fin cfg0.N) (k : Fin 3072) (q : Fin 32) :
    (iblk0 V c 2 t : Vec Ideal S3072x32 .f32) (ix2 k q) = (V c main_arg4 : S3072x32.Idx → Elt Ideal .f32) (ix2 k q) := by
  obtain ⟨-, -, -, e3, e4, -⟩ := block_indices t
  show V c main_arg4 (((cfg0.win 2).blk t).view.emb (ix2 k q)) = V c main_arg4 (ix2 k q)
  refine congrArg _ (funext fun a => Fin.ext ?_)
  match a with
  | ⟨0, _⟩ => show win0_2.index t (0 : Fin 2) * 3072 + 1 * k.val = k.val; omega
  | ⟨1, _⟩ => show win0_2.index t (1 : Fin 2) * 32 + 1 * q.val = q.val; omega

/-- What point t writes back to the dequantised activations is block t of the whole-array function. -/
theorem flushed_xdq (c : Dev nD) (t : Fin cfg0.N) :
    (dat0 V c).flushed 3 t = ((cfg0.win 3).blk t).view.read (Elt Ideal) (xdqArr (V c main_v0) (V c main_arg3)) := by
  show (cfg0.win 3).cut (grid0.coords t) ((dat0 V c).after 3 t) = _
  rw [after0_3]
  unfold out0_3
  rw [View.canon_unit_zero zero2]
  simp only [View.ld_unit_zero (S := S256x3072) zero2, View.ld_unit_zero (S := S3072) zero1]
  obtain ⟨-, -, -, -, -, -, -, e7, e8⟩ := block_indices t
  funext j
  obtain ⟨p, q, rfl⟩ : ∃ (p : Fin 256) (q : Fin 3072), j = ix2 p q := ⟨j 0, j 1, eq_ix2 j⟩
  show k0_pay3 (iblk0 V c 0 t) (iblk0 V c 1 t) (ix2 p q)
    = xdqAt (V c main_v0) (V c main_arg3) ((((cfg0.win 3).blk t).view.emb (ix2 p q)) 0) ((((cfg0.win 3).blk t).view.emb (ix2 p q)) 1)
  refine (dequant_apply _ _ p q).trans (xdqAt_congr _ _ _ _ _ _ _ _ ?_ (fun k => ?_) (fun k => ?_))
  · show q.val = win0_3.index t (1 : Fin 2) * 3072 + 1 * q.val; omega
  · exact act_block V c t p k _ (by show win0_3.index t (0 : Fin 2) * 256 + 1 * p.val = _; omega)
  · exact smooth_block V c t k

/-- What point t writes back to the low-rank hidden states is block t of the whole-array function. -/
theorem flushed_lora (c : Dev nD) (t : Fin cfg0.N) :
    (dat0 V c).flushed 4 t
      = ((cfg0.win 4).blk t).view.read (Elt Ideal) (loraArr (V c main_v0) (V c main_arg3) (V c main_arg4)) := by
  show (cfg0.win 4).cut (grid0.coords t) ((dat0 V c).after 4 t) = _
  rw [after0_4]
  unfold out0_4
  rw [View.canon_unit_zero zero2]
  simp only [View.ld_unit_zero (S := S256x3072) zero2, View.ld_unit_zero (S := S3072) zero1,
    View.ld_unit_zero (S := S3072x32) zero2]
  obtain ⟨-, -, -, -, -, e5, e6, -, e8⟩ := block_indices t
  funext j
  obtain ⟨p, q, rfl⟩ : ∃ (p : Fin 256) (q : Fin 32), j = ix2 p q := ⟨j 0, j 1, eq_ix2 j⟩
  show k0_pay2 (iblk0 V c 0 t) (iblk0 V c 1 t) (iblk0 V c 2 t) (ix2 p q)
    = loraAt (V c main_v0) (V c main_arg3) (V c main_arg4) ((((cfg0.win 4).blk t).view.emb (ix2 p q)) 0)
        ((((cfg0.win 4).blk t).view.emb (ix2 p q)) 1)
  refine (lowrank_apply _ _ _ p q).trans
    (loraAt_congr _ _ _ _ _ _ _ _ _ _ ?_ (fun k => ?_) (fun k => ?_) (fun k => ?_))
  · show q.val = win0_4.index t (1 : Fin 2) * 32 + 1 * q.val; omega
  · exact act_block V c t p k _ (by show win0_4.index t (0 : Fin 2) * 256 + 1 * p.val = _; omega)
  · exact smooth_block V c t k
  · exact down_block V c t k q

/-- An index of the dequantised activations lies in point t's block iff each coordinate is in the block's range. -/
theorem mem_block_xdq (t : Fin cfg0.N) (i : S4096x3072.Idx) :
    i ∈ ((cfg0.win 3).blk t).view.set ↔ ∀ a : Fin 2, win0_3.index t a * S256x3072.size a ≤ (i a).val
      ∧ (i a).val < win0_3.index t a * S256x3072.size a + S256x3072.size a := by
  show i ∈ ((View.whole main_v1_0).slice (win0_3.rect t)).set ↔ _
  rw [View.set_slice_whole, Rect.mem_set_unit]
  exact Iff.rfl

/-- The same for the low-rank hidden states. -/
theorem mem_block_lora (t : Fin cfg0.N) (i : S4096x32.Idx) :
    i ∈ ((cfg0.win 4).blk t).view.set ↔ ∀ a : Fin 2, win0_4.index t a * S256x32.size a ≤ (i a).val
      ∧ (i a).val < win0_4.index t a * S256x32.size a + S256x32.size a := by
  show i ∈ ((View.whole main_v1_1).slice (win0_4.rect t)).set ↔ _
  rw [View.set_slice_whole, Rect.mem_set_unit]
  exact Iff.rfl

/-- Token r is written by the point whose row block is r / 256. -/
theorem cover_xdq (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := block_onto ⟨(i 0).val / 256, by omega⟩
  have ht' : win0_3.index t (0 : Fin 2) = (i 0).val / 256 := ht
  obtain ⟨-, -, -, -, -, -, -, e7, -⟩ := block_indices t
  refine ⟨t, flush0_3 t, ?_⟩
  rw [mem_block_xdq]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 3072 ≤ (i 1).val ∧ (i 1).val < win0_3.index t (1 : Fin 2) * 3072 + 3072
    omega

theorem cover_lora (i : S4096x32.Idx) :
    ∃ t : Fin cfg0.N, (cfg0.win 4).flush t = true ∧ i ∈ ((cfg0.win 4).blk t).view.set := by
  have hi0 : (i 0).val < 4096 := (i 0).isLt
  have hi1 : (i 1).val < 32 := (i 1).isLt
  obtain ⟨t, ht⟩ := block_onto ⟨(i 0).val / 256, by omega⟩
  have ht' : win0_3.index t (0 : Fin 2) = (i 0).val / 256 := ht
  obtain ⟨-, -, -, -, -, e5, e6, -, -⟩ := block_indices t
  refine ⟨t, flush0_4 t, ?_⟩
  rw [mem_block_lora]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 32 ≤ (i 1).val ∧ (i 1).val < win0_4.index t (1 : Fin 2) * 32 + 32
    omega

/-- After the run the dequantised activations are the whole-array function of the arrays found at entry. -/
theorem final_xdq (c : Dev nD) : (dat0 V c).arrAt 3 cfg0.N = xdqArr (V c main_v0) (V c main_arg3) :=
  (dat0 V c).arrAt_eq_of_cover 3 _ (fun t _ => flushed_xdq V c t) cover_xdq

/-- After the run the low-rank hidden states are the whole-array function of the arrays found at entry. -/
theorem final_lora (c : Dev nD) :
    (dat0 V c).arrAt 4 cfg0.N = loraArr (V c main_v0) (V c main_arg3) (V c main_arg4) :=
  (dat0 V c).arrAt_eq_of_cover 4 _ (fun t _ => flushed_lora V c t) cover_lora

end Cert.KernelIdeal.Prep

end
-- ==== Proof.KernelB.lean ====
/-
  What the product kernel computes on one tile of 512 tokens by 512 output channels, entry by entry over the extended
  reals.

  The kernel turns the tile's weight codes into weights, w[q, k] = (code[q, k] - 8) · scale[k / 64, q] with the code read
  as a signed integer, multiplies the block x0 of dequantised activations with them contracting the input channels,
  adds the product of the low-rank hidden states x4 with the up projection x3 contracting the rank, and adds the bias:
      out[p, q] = (Σ_k x0[p, k] · w[q, k] + Σ_r x4[p, r] · x3[q, r]) + x5[q].
  Over the extended reals a change of number format is the identity, so the two operands of the large product are
  read as they are.
-/
import proofs.«105690_j33990371180875_1_alg».proof.Proof.Gen.KernelIdeal.Skeleton
import Idealize.ShloMosaic.Lib.ValueLayout
import proofs.«105690_j33990371180875_1_alg».proof.Proof.Layout
import proofs.«105690_j33990371180875_1_alg».proof.Proof.LibAxis2
import proofs.«105690_j33990371180875_1_alg».proof.Proof.LibDotForms

noncomputable section

open scoped BigOperators

namespace Cert.KernelIdeal.Gemm

open Cert.KernelIdeal Cert.KernelIdeal.Gen Idealize.ShloMosaic Idealize.ShloMosaic.ValueIdx
open Cert.QuantLinear Cert.LibAxis2 Cert.LibDotForms

/-- One entry of the tile: the quantised product, plus the low-rank correction, plus the bias. -/
theorem tile_apply (x0 : Vec Ideal S512x3072 .f32) (x1 : Vec Ideal S512x3072 .i32) (x2 : Vec Ideal S48x512 .f32)
    (x3 : Vec Ideal S512x32 .f32) (x4 : Vec Ideal S512x32 .f32) (x5 : Vec Ideal S512 .f32) (p q : Fin 512) :
    k1_pay1 (F := Ideal) x0 x1 x2 x3 x4 x5 (ix2 p q) = outAt x0 x4 x1 x2 x3 x5 p q := by
  unfold k1_pay1 outAt
  rw [addf_apply, addf_apply, broadcastTo_1b_ab_apply, shapeCast_a_1a_apply]
  refine congrArg₂ (· + ·) (congrArg₂ (· + ·) ?_ ?_) rfl
  · refine (matmul_transposed_prec none _ _ p q).trans (Finset.sum_congr rfl fun k _ => ?_)
    rw [truncf_apply, truncf_apply, shapeCast_self, shapeCast_merge_apply, mulf_apply, shapeCast_split_apply, subf_apply,
      sitofp_apply, broadcast_apply, broadcastTo_last_apply, shapeCast_keepdims_apply, transpose_ix2_apply]
    rfl
  · refine (matmul_transposed_prec none _ _ p q).trans (Finset.sum_congr rfl fun k _ => ?_)
    rw [shapeCast_self]

end Cert.KernelIdeal.Gemm

end
-- ==== Proof.Region1.lean ====
/-
  The array the product kernel leaves, as a function of the arrays it finds.

  Grid point t of the 8 × 6 handles a tile of 512 tokens by 512 output channels: with (a, b) its block coordinates it
  reads rows 512 a … of the dequantised activations and of the low-rank hidden states, rows 512 b … of the weight codes
  and of the up projection, columns 512 b … of the weight scales and entries 512 b … of the bias, and writes tile (a, b) of
  the output. An output entry depends on exactly those rows, so the tile is the corresponding tile of one whole-array
  function; the 48 tiles cover the 4096 × 3072 output, so after the run the output IS that function of the arrays found
  at entry.
-/
import proofs.«105690_j33990371180875_1_alg».proof.Proof.Gen.KernelIdeal.Frame
import Idealize.ShloMosaic.Lib.Pipeline.Value
import proofs.«105690_j33990371180875_1_alg».proof.Proof.KernelB
import proofs.«105690_j33990371180875_1_alg».proof.Proof.RowLocal

noncomputable section

namespace Cert.KernelIdeal.Gemm

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices at a grid point, against the output tile's coordinates. -/
theorem block_indices : ∀ t : Fin cfg1.N,
    win1_0.index t (0 : Fin 2) = win1_6.index t (0 : Fin 2) ∧ win1_0.index t (1 : Fin 2) = 0
    ∧ win1_1.index t (0 : Fin 2) = win1_6.index t (1 : Fin 2) ∧ win1_1.index t (1 : Fin 2) = 0
    ∧ win1_2.index t (0 : Fin 2) = 0 ∧ win1_2.index t (1 : Fin 2) = win1_6.index t (1 : Fin 2)
    ∧ win1_3.index t (0 : Fin 2) = win1_6.index t (1 : Fin 2) ∧ win1_3.index t (1 : Fin 2) = 0
    ∧ win1_4.index t (0 : Fin 2) = win1_6.index t (0 : Fin 2) ∧ win1_4.index t (1 : Fin 2) = 0
    ∧ win1_5.index t (0 : Fin 1) = win1_6.index t (1 : Fin 2)
    ∧ win1_6.index t (0 : Fin 2) ≤ 7 ∧ win1_6.index t (1 : Fin 2) ≤ 5 :=
  (by decide +kernel : ∀ t : Fin grid1.N, _)

/-- Every tile is some grid point's. -/
theorem block_onto : ∀ (q0 : Fin 8) (q1 : Fin 6), ∃ t : Fin cfg1.N,
    win1_6.index t (0 : Fin 2) = q0.val ∧ win1_6.index t (1 : Fin 2) = q1.val :=
  (by decide +kernel : ∀ (q0 : Fin 8) (q1 : Fin 6), ∃ t : Fin grid1.N,
    win1_6.index t (0 : Fin 2) = q0.val ∧ win1_6.index t (1 : Fin 2) = q1.val)

theorem xdq_block (c : Dev nD) (t : Fin cfg1.N) (p : Fin 512) (k : Fin 3072) (r : Fin 4096)
    (hr : r.val = win1_6.index t (0 : Fin 2) * 512 + p.val) :
    (iblk1 V c 0 t : Vec Ideal S512x3072 .f32) (ix2 p k) = (V c main_v1_0 : S4096x3072.Idx → Elt Ideal .f32) (ix2 r k) := by
  obtain ⟨e0, e1, -⟩ := block_indices t
  show V c main_v1_0 (((cfg1.win 0).blk t).view.emb (ix2 p k)) = V c main_v1_0 (ix2 r k)
  refine congrArg _ (funext fun a => Fin.ext ?_)
  match a with
  | ⟨0, _⟩ => show win1_0.index t (0 : Fin 2) * 512 + 1 * p.val = r.val; omega
  | ⟨1, _⟩ => show win1_0.index t (1 : Fin 2) * 3072 + 1 * k.val = k.val; omega

theorem code_block (c : Dev nD) (t : Fin cfg1.N) (q : Fin 512) (k : Fin 3072) (n : Fin 3072)
    (hn : n.val = win1_6.index t (1 : Fin 2) * 512 + q.val) :
    (iblk1 V c 1 t : Vec Ideal S512x3072 .i32) (ix2 q k) = (V c main_arg1 : S3072x3072.Idx → Elt Ideal .i32) (ix2 n k) := by
  obtain ⟨-, -, e2, e3, -⟩ := block_indices t
  show V c main_arg1 (((cfg1.win 1).blk t).view.emb (ix2 q k)) = V c main_arg1 (ix2 n k)
  refine congrArg _ (funext fun a => Fin.ext ?_)
  match a with
  | ⟨0, _⟩ => show win1_1.index t (0 : Fin 2) * 512 + 1 * q.val = n.val; omega
  | ⟨1, _⟩ => show win1_1.index t (1 : Fin 2) * 3072 + 1 * k.val = k.val; omega

theorem scale_block (c : Dev nD) (t : Fin cfg1.N) (g : Fin 48) (q : Fin 512) (n : Fin 3072)
    (hn : n.val = win1_6.index t (1 : Fin 2) * 512 + q.val) :
    (iblk1 V c 2 t : Vec Ideal S48x512 .f32) (ix2 g q) = (V c main_arg2 : S48x3072.Idx → Elt Ideal .f32) (ix2 g n) := by
  obtain ⟨-, -, -, -, e4, e5, -⟩ := block_indices t
  show V c main_arg2 (((cfg1.win 2).blk t).view.emb (ix2 g q)) = V c main_arg2 (ix2 g n)
  refine congrArg _ (funext fun a => Fin.ext ?_)
  match a with
  | ⟨0, _⟩ => show win1_2.index t (0 : Fin 2) * 48 + 1 * g.val = g.val; omega
  | ⟨1, _⟩ => show win1_2.index t (1 : Fin 2) * 512 + 1 * q.val = n.val; omega

theorem up_block (c : Dev nD) (t : Fin cfg1.N) (q : Fin 512) (r : Fin 32) (n : Fin 3072)
    (hn : n.val = win1_6.index t (1 : Fin 2) * 512 + q.val) :
    (iblk1 V c 3 t : Vec Ideal S512x32 .f32) (ix2 q r) = (V c main_arg5 : S3072x32.Idx → Elt Ideal .f32) (ix2 n r) := by
  obtain ⟨-, -, -, -, -, -, e6, e7, -⟩ := block_indices t
  show V c main_arg5 (((cfg1.win 3).blk t).view.emb (ix2 q r)) = V c main_arg5 (ix2 n r)
  refine congrArg _ (funext fun a => Fin.ext ?_)
  match a with
  | ⟨0, _⟩ => show win1_3.index t (0 : Fin 2) * 512 + 1 * q.val = n.val; omega
  | ⟨1, _⟩ => show win1_3.index t (1 : Fin 2) * 32 + 1 * r.val = r.val; omega

theorem lora_block (c : Dev nD) (t : Fin cfg1.N) (p : Fin 512) (r : Fin 32) (m : Fin 4096)
    (hm : m.val = win1_6.index t (0 : Fin 2) * 512 + p.val) :
    (iblk1 V c 4 t : Vec Ideal S512x32 .f32) (ix2 p r) = (V c main_v1_1 : S4096x32.Idx → Elt Ideal .f32) (ix2 m r) := by
  obtain ⟨-, -, -, -, -, -, -, -, e8, e9, -⟩ := block_indices t
  show V c main_v1_1 (((cfg1.win 4).blk t).view.emb (ix2 p r)) = V c main_v1_1 (ix2 m r)
  refine congrArg _ (funext fun a => Fin.ext ?_)
  match a with
  | ⟨0, _⟩ => show win1_4.index t (0 : Fin 2) * 512 + 1 * p.val = m.val; omega
  | ⟨1, _⟩ => show win1_4.index t (1 : Fin 2) * 32 + 1 * r.val = r.val; omega

theorem bias_block (c : Dev nD) (t : Fin cfg1.N) (q : Fin 512) (n : Fin 3072)
    (hn : n.val = win1_6.index t (1 : Fin 2) * 512 + q.val) :
    (iblk1 V c 5 t : Vec Ideal S512 .f32) (ix1 q) = (V c main_arg6 : S3072.Idx → Elt Ideal .f32) (ix1 n) := by
  obtain ⟨-, -, -, -, -, -, -, -, -, -, e10, -⟩ := block_indices t
  show V c main_arg6 (((cfg1.win 5).blk t).view.emb (ix1 q)) = V c main_arg6 (ix1 n)
  refine congrArg _ (funext fun a => Fin.ext ?_)
  match a with
  | ⟨0, _⟩ => show win1_5.index t (0 : Fin 1) * 512 + 1 * q.val = n.val; omega

/-- What point t writes back to the output is tile t of the whole-array function. -/
theorem flushed_out (c : Dev nD) (t : Fin cfg1.N) :
    (dat1 V c).flushed 6 t = ((cfg1.win 6).blk t).view.read (Elt Ideal)
      (outArr (V c main_v1_0) (V c main_v1_1) (V c main_arg1) (V c main_arg2) (V c main_arg5) (V c main_arg6)) := by
  show (cfg1.win 6).cut (grid1.coords t) ((dat1 V c).after 6 t) = _
  rw [after1_6]
  unfold out1_6
  rw [View.canon_unit_zero zero2]
  simp only [View.ld_unit_zero (S := S512x3072) zero2, View.ld_unit_zero (S := S48x512) zero2,
    View.ld_unit_zero (S := S512x32) zero2, View.ld_unit_zero (S := S512) zero1]
  funext j
  obtain ⟨p, q, rfl⟩ : ∃ (p : Fin 512) (q : Fin 512), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = outAt (V c main_v1_0) (V c main_v1_1) (V c main_arg1) (V c main_arg2) (V c main_arg5) (V c main_arg6)
        ((((cfg1.win 6).blk t).view.emb (ix2 p q)) 0) ((((cfg1.win 6).blk t).view.emb (ix2 p q)) 1)
  have h0 : ((((cfg1.win 6).blk t).view.emb (ix2 p q)) 0).val = win1_6.index t (0 : Fin 2) * 512 + p.val := by
    show win1_6.index t (0 : Fin 2) * 512 + 1 * p.val = _; omega
  have h1 : ((((cfg1.win 6).blk t).view.emb (ix2 p q)) 1).val = win1_6.index t (1 : Fin 2) * 512 + q.val := by
    show win1_6.index t (1 : Fin 2) * 512 + 1 * q.val = _; omega
  refine (tile_apply _ _ _ _ _ _ p q).trans (outAt_congr _ _ _ _ _ _ _ _ _ _ _ _ _ _ _ _
    (fun k => ?_) (fun r => ?_) (fun k => ?_) (fun g => ?_) (fun r => ?_) ?_)
  · exact xdq_block V c t p k _ h0
  · exact lora_block V c t p r _ h0
  · exact code_block V c t q k _ h1
  · exact scale_block V c t g q _ h1
  · exact up_block V c t q r _ h1
  · exact bias_block V c t q _ h1

/-- An index of the output lies in point t's tile iff each coordinate is in the tile's range. -/
theorem mem_tile (t : Fin cfg1.N) (i : S4096x3072.Idx) :
    i ∈ ((cfg1.win 6).blk t).view.set ↔ ∀ a : Fin 2, win1_6.index t a * S512x512.size a ≤ (i a).val
      ∧ (i a).val < win1_6.index t a * S512x512.size a + S512x512.size a := by
  show i ∈ ((View.whole main_v2).slice (win1_6.rect t)).set ↔ _
  rw [View.set_slice_whole, Rect.mem_set_unit]
  exact Iff.rfl

/-- Entry (m, n) is written by the point whose tile is (m / 512, n / 512). -/
theorem cover_out (i : S4096x3072.Idx) :
    ∃ t : Fin cfg1.N, (cfg1.win 6).flush t = true ∧ i ∈ ((cfg1.win 6).blk t).view.set := by
  have hi0 : (i 0).val < 4096 := (i 0).isLt
  have hi1 : (i 1).val < 3072 := (i 1).isLt
  obtain ⟨t, ht0, ht1⟩ := block_onto ⟨(i 0).val / 512, by omega⟩ ⟨(i 1).val / 512, by omega⟩
  have ht0' : win1_6.index t (0 : Fin 2) = (i 0).val / 512 := ht0
  have ht1' : win1_6.index t (1 : Fin 2) = (i 1).val / 512 := ht1
  refine ⟨t, flush1_6 t, ?_⟩
  rw [mem_tile]
  intro a
  match a with
  | ⟨0, _⟩ =>
    show win1_6.index t (0 : Fin 2) * 512 ≤ (i 0).val ∧ (i 0).val < win1_6.index t (0 : Fin 2) * 512 + 512
    omega
  | ⟨1, _⟩ =>
    show win1_6.index t (1 : Fin 2) * 512 ≤ (i 1).val ∧ (i 1).val < win1_6.index t (1 : Fin 2) * 512 + 512
    omega

/-- After the run the output is the whole-array function of the arrays found at entry. -/
theorem final_out (c : Dev nD) : (dat1 V c).arrAt 6 cfg1.N
    = outArr (V c main_v1_0) (V c main_v1_1) (V c main_arg1) (V c main_arg2) (V c main_arg5) (V c main_arg6) :=
  (dat1 V c).arrAt_eq_of_cover 6 _ (fun t _ => flushed_out V c t) cover_out

end Cert.KernelIdeal.Gemm

end
-- ==== Proof.Layer.lean ====
/-
  The whole layer as one function of its seven arguments.

  The activations arrive as [1, 4096, 3072]; they are read as 4096 tokens of 3072 channels, the layer of the
  specification is applied, and the 4096 × 3072 output is read back as [1, 4096, 3072].
-/
import Idealize.ShloMosaic.Lib.Pipeline.Value
import proofs.«105690_j33990371180875_1_alg».proof.Proof.Spec

noncomputable section

namespace Cert.QuantLinear

open Idealize.ShloMosaic Idealize.ShloMosaic.ValueIdx

/-- The output of the layer, from the activations, the weight codes, the weight scales, the smoothing vector, the down
    projection, the up projection and the bias. -/
def layer (x : (⟨3, ![1, 4096, 3072]⟩ : Shape).Idx → EReal) (qw : (⟨2, ![3072, 3072]⟩ : Shape).Idx → BitVec 32)
    (ws : (⟨2, ![48, 3072]⟩ : Shape).Idx → EReal) (s : (⟨1, ![3072]⟩ : Shape).Idx → EReal)
    (pd pu : (⟨2, ![3072, 32]⟩ : Shape).Idx → EReal) (bias : (⟨1, ![3072]⟩ : Shape).Idx → EReal) :
    (⟨3, ![1, 4096, 3072]⟩ : Shape).Idx → EReal :=
  shapeCast ⟨3, ![1, 4096, 3072]⟩
    (outArr (xdqArr (shapeCast ⟨2, ![4096, 3072]⟩ x (by decide)) s) (loraArr (shapeCast ⟨2, ![4096, 3072]⟩ x (by decide)) s pd)
      qw ws pu bias) (by decide)

end Cert.QuantLinear

end
-- ==== Proof.KernelRun.lean ====
/-
  The kernel program's run, read: its result array as the layer of the specification applied to its arguments.

  The program recasts the activations as 4096 tokens, runs the preparation kernel, runs the product kernel on what the
  first left, and recasts the output. Walking the buffer contents back through these four steps — the last recast reads
  the product kernel's output array; that array is the output function of the arrays the kernel found, two of which are
  the preparation kernel's output arrays, themselves functions of the recast activations; every other array it found is
  an argument, untouched since launch — gives the result as one function of the launch memory.
-/
import proofs.«105690_j33990371180875_1_alg».proof.Proof.Gen.KernelIdeal.Frame
import Idealize.ShloMosaic.Lib.StableHlo.Run
import proofs.«105690_j33990371180875_1_alg».proof.Proof.Region0
import proofs.«105690_j33990371180875_1_alg».proof.Proof.Region1
import proofs.«105690_j33990371180875_1_alg».proof.Proof.Layer

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.QuantLinear

local notation "𝕄" => MT nD τ sig Unit (Elt Ideal) ℕ (UR sig nD τ) ℕ

variable (m : (ℓ : Loc nD τ sig) → Buf (Elt Ideal) ℓ) (ρ : Dev nD → PrngReg)

/-! ## The buffer contents, walked back to the launch memory -/

/-- A buffer the first recast does not write holds at the preparation kernel's entry what it held at launch. -/
theorem entry0_keep (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
      simp only [hostOps0, List.Forall, StableHlo.reshape_writes, Finset.mem_singleton]
      exact StableHlo.devRef_ne_of_ne hb))).trans rfl

/-- The recast activations. -/
theorem entry0_tokens (c : Dev nD) :
    (V1 m ρ c main_v0 : S4096x3072.Idx → Elt Ideal .f32)
      = shapeCast S4096x3072 (m ((c : Thread nD τ).loc main_arg0) : S1x4096x3072.Idx → Elt Ideal .f32) Gen.shapeCasts_S1x4096x3072_S4096x3072 := by
  dsimp only [V1, W1, hostOps0]; after_results; rfl

/-- The result buffer's contents at the end, as the layer applied to the launch memory's argument arrays. -/
theorem result_eq (c : Dev nD) :
    (W4 m ρ c (Proc.devRef .tc main_v3) : S1x4096x3072.Idx → Elt Ideal .f32)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h4 : (W4 m ρ c (Proc.devRef .tc main_v3) : S1x4096x3072.Idx → Elt Ideal .f32)
      = shapeCast S1x4096x3072 (W3 m ρ c (Proc.devRef .tc main_v2) : S4096x3072.Idx → Elt Ideal .f32)
          Gen.shapeCasts_S4096x3072_S1x4096x3072 := by
    dsimp only [W4, hostOps2]; after_results; rfl
  have h3 : W3 m ρ c (Proc.devRef .tc main_v2) = (dat1 (V2 m ρ) c).arrAt 6 cfg1.N := W3_arr m ρ c 6
  have hxdq : V2 m ρ c main_v1_0 = xdqArr (V1 m ρ c main_v0) (V1 m ρ c main_arg3) :=
    (W2_arr m ρ c 3).trans (Prep.final_xdq (V1 m ρ) c)
  have hlora : V2 m ρ c main_v1_1 = loraArr (V1 m ρ c main_v0) (V1 m ρ c main_arg3) (V1 m ρ c main_arg4) :=
    (W2_arr m ρ c 4).trans (Prep.final_lora (V1 m ρ) c)
  have a1 : V2 m ρ c main_arg1 = m ((c : Thread nD τ).loc main_arg1) :=
    (W2_of_ne m ρ c main_arg1 (by decide)).trans (entry0_keep m ρ c main_arg1 (by decide))
  have a2 : V2 m ρ c main_arg2 = m ((c : Thread nD τ).loc main_arg2) :=
    (W2_of_ne m ρ c main_arg2 (by decide)).trans (entry0_keep m ρ c main_arg2 (by decide))
  have a5 : V2 m ρ c main_arg5 = m ((c : Thread nD τ).loc main_arg5) :=
    (W2_of_ne m ρ c main_arg5 (by decide)).trans (entry0_keep m ρ c main_arg5 (by decide))
  have a6 : V2 m ρ c main_arg6 = m ((c : Thread nD τ).loc main_arg6) :=
    (W2_of_ne m ρ c main_arg6 (by decide)).trans (entry0_keep m ρ c main_arg6 (by decide))
  have a3 : V1 m ρ c main_arg3 = m ((c : Thread nD τ).loc main_arg3) := entry0_keep m ρ c main_arg3 (by decide)
  have a4 : V1 m ρ c main_arg4 = m ((c : Thread nD τ).loc main_arg4) := entry0_keep m ρ c main_arg4 (by decide)
  rw [h4, h3, Gemm.final_out (V2 m ρ) c, hxdq, hlora, a1, a2, a5, a6, a3, a4, entry0_tokens]
  rfl

/-! ## The run -/

set_option backward.isDefEq.respectTransparency.types false in
/-- Every weakly fair execution of the program terminates without a fault, with the result buffer at the contents the
    walk above names and the arguments as launched. -/
theorem run_buffers : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The run, read: the result is the layer of the launch memory's arguments, which end unchanged. -/
theorem run : θ_run defs (onTc (τ := τ) (main (F := Ideal))) ⟨m, fun _ => 0, ρ⟩ (fun r => ∀ c : Dev nD,
      r.2.mem ((c.tc : Thread nD τ).loc main_v3)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_buffers m ρ)

end Cert.KernelIdeal.Whole

end
-- ==== Proof.RefActs.lean ====
/-
  The reference's activations, entry by entry over the extended reals.

  The reference smooths all 4096 tokens at once, multiplies by the down projection, and quantises every group of 64
  channels of every token: read at an index, each stage is the function of the specification — the smoothed entry, the
  low-rank hidden state, a group's largest magnitude, its step, and the dequantised entry.
-/
import proofs.«105690_j33990371180875_1_alg».proof.Proof.Gen.ReferenceIdeal.Read
import proofs.«105690_j33990371180875_1_alg».proof.Proof.Layout
import proofs.«105690_j33990371180875_1_alg».proof.Proof.LibAxis2

noncomputable section

open scoped BigOperators

namespace Cert.ReferenceIdeal.Acts

open Cert.ReferenceIdeal Cert.ReferenceIdeal.Gen Cert.ReferenceIdeal.Read Idealize.ShloMosaic Idealize.ShloMosaic.ValueIdx
open Cert.QuantLinear Cert.LibAxis2 Cert.LibSoftmaxRow

variable (x0 : (⟨S1x4096x3072, .f32⟩ : BufTy).Contents (Elt Ideal)) (x3 : (⟨S3072, .f32⟩ : BufTy).Contents (Elt Ideal))
  (x4 : (⟨S3072x32, .f32⟩ : BufTy).Contents (Elt Ideal))

/-- The smoothed activations. -/
theorem smooth_apply (r : Fin 4096) (c : Fin 3072) :
    val_main_v3 (F := Ideal) x0 x3 (ix2 r c) = xsAt (val_main_v0 (F := Ideal) x0) x3 r c := by
  have e : idx_main_v1 (idx_main_v2 (ix2 r c)) = ix1 c := funext fun a => Fin.ext (by match a with | ⟨0, _⟩ => rfl)
  rw [val_main_v3_apply, val_main_v2_apply, val_main_v1_apply, e]
  rfl

/-- The low-rank hidden states. -/
theorem lowrank_apply (r : Fin 4096) (q : Fin 32) :
    val_main_v4 (F := Ideal) x0 x3 x4 (ix2 r q) = loraAt (val_main_v0 (F := Ideal) x0) x3 x4 r q := by
  rw [val_main_v4_apply]
  unfold loraAt
  refine Finset.sum_congr rfl fun k _ => ?_
  have el : lidx_main_v4 (ix2 r q) k = ix2 r k :=
    funext fun a => Fin.ext (by match a with | ⟨0, _⟩ => rfl | ⟨1, _⟩ => rfl)
  have er : ridx_main_v4 (ix2 r q) k = ix2 k q :=
    funext fun a => Fin.ext (by match a with | ⟨0, _⟩ => rfl | ⟨1, _⟩ => rfl)
  rw [el, er, smooth_apply]

/-- The smoothed activations cut into groups. -/
theorem grouped_apply (r : Fin 4096) (g : Fin 48) (l : Fin 64) :
    val_main_v5 (F := Ideal) x0 x3 (ix3 r g l) = xsAt (val_main_v0 (F := Ideal) x0) x3 r (col g l) := by
  unfold val_main_v5
  rw [shapeCast_split_apply, smooth_apply]

/-- A group's largest magnitude. -/
theorem groupmax_apply (r : Fin 4096) (g : Fin 48) :
    val_main_v7 (F := Ideal) x0 x3 (ix2 r g)
      = rowMax fun l => max (xsAt (val_main_v0 (F := Ideal) x0) x3 r (col g l)) (-(xsAt (val_main_v0 (F := Ideal) x0) x3 r (col g l))) := by
  unfold val_main_v7
  refine (hostReduce_max_last (val_main_v6 (F := Ideal) x0 x3) (val_main_cst (F := Ideal)) (fun _ => rfl) _ (by decide) _ r g).trans ?_
  refine congrArg rowMax (funext fun k => ?_)
  show max (val_main_v5 (F := Ideal) x0 x3 (ix3 r g k)) (-(val_main_v5 (F := Ideal) x0 x3 (ix3 r g k))) = _
  rw [grouped_apply]

/-- A group's step. -/
theorem step_apply (r : Fin 4096) (g : Fin 48) :
    val_main_v10 (F := Ideal) x0 x3 (ix3 r g (0 : Fin 1)) = step fun l => xsAt (val_main_v0 (F := Ideal) x0) x3 r (col g l) := by
  have e : idx_main_v8 (ix3 r g (0 : Fin 1)) = ix2 r g :=
    funext fun a => Fin.ext (by match a with | ⟨0, _⟩ => rfl | ⟨1, _⟩ => rfl)
  rw [val_main_v10_apply, val_main_v8_apply, e, groupmax_apply, val_main_v9_apply]
  rfl

/-- The dequantised activations. -/
theorem dequant_apply (r : Fin 4096) (c : Fin 3072) :
    val_main_v19 (F := Ideal) x0 x3 (ix2 r c) = xdqAt (val_main_v0 (F := Ideal) x0) x3 r c := by
  unfold val_main_v19 xdqAt
  rw [shapeCast_merge_apply]
  generalize grp c = g
  generalize lane c = l
  have e13 : idx_main_v13 (ix3 r g l) = ix3 r g (0 : Fin 1) :=
    funext fun a => Fin.ext (by match a with | ⟨0, _⟩ => rfl | ⟨1, _⟩ => rfl | ⟨2, _⟩ => rfl)
  have e17 : idx_main_v17 (ix3 r g l) = ix3 r g (0 : Fin 1) :=
    funext fun a => Fin.ext (by match a with | ⟨0, _⟩ => rfl | ⟨1, _⟩ => rfl | ⟨2, _⟩ => rfl)
  rw [val_main_v18_apply, val_main_v16_apply, val_main_call1_v4_apply, val_main_call1_v2_apply, val_main_call1_v1_apply,
    val_main_v15_apply, val_main_v14_apply, val_main_v13_apply, e13, val_main_v12_apply, val_main_v11_apply,
    val_main_v17_apply, e17, step_apply, grouped_apply]
  rfl

/-- As arrays. -/
theorem xdq_eq : val_main_v19 (F := Ideal) x0 x3 = xdqArr (val_main_v0 (F := Ideal) x0) x3 := by
  funext i
  obtain ⟨r, c, rfl⟩ : ∃ (r : Fin 4096) (c : Fin 3072), i = ix2 r c := ⟨i 0, i 1, eq_ix2 i⟩
  exact dequant_apply x0 x3 r c

theorem lora_eq : val_main_v4 (F := Ideal) x0 x3 x4 = loraArr (val_main_v0 (F := Ideal) x0) x3 x4 := by
  funext i
  obtain ⟨r, q, rfl⟩ : ∃ (r : Fin 4096) (q : Fin 32), i = ix2 r q := ⟨i 0, i 1, eq_ix2 i⟩
  exact lowrank_apply x0 x3 x4 r q

end Cert.ReferenceIdeal.Acts

end
-- ==== Proof.RefOut.lean ====
/-
  The reference's weights and output, entry by entry over the extended reals, and its result as the layer of the
  specification.

  The reference turns all weight codes into weights at once, w[n, c] = (code[n, c] - 8) · scale[c / 64, n], multiplies the
  dequantised activations with them contracting the input channels, adds the low-rank correction and the bias, and
  recasts the output: index by index this is the specification's output of the reference's own dequantised activations
  and low-rank hidden states, which are the specification's arrays.
-/
import proofs.«105690_j33990371180875_1_alg».proof.Proof.Gen.ReferenceIdeal.Read
import Idealize.ShloMosaic.Lib.ValueLayout
import proofs.«105690_j33990371180875_1_alg».proof.Proof.RefActs
import proofs.«105690_j33990371180875_1_alg».proof.Proof.Layer

noncomputable section

open scoped BigOperators

namespace Cert.ReferenceIdeal.Out

open Cert.ReferenceIdeal Cert.ReferenceIdeal.Gen Cert.ReferenceIdeal.Read Idealize.ShloMosaic Idealize.ShloMosaic.ValueIdx
open Cert.QuantLinear Cert.LibAxis2

variable (x0 : (⟨S1x4096x3072, .f32⟩ : BufTy).Contents (Elt Ideal)) (x1 : (⟨S3072x3072, .i32⟩ : BufTy).Contents (Elt Ideal))
  (x2 : (⟨S48x3072, .f32⟩ : BufTy).Contents (Elt Ideal)) (x3 : (⟨S3072, .f32⟩ : BufTy).Contents (Elt Ideal))
  (x4 x5 : (⟨S3072x32, .f32⟩ : BufTy).Contents (Elt Ideal)) (x6 : (⟨S3072, .f32⟩ : BufTy).Contents (Elt Ideal))

/-- The dequantised weights. -/
theorem weight_apply (n : Fin 3072) (c : Fin 3072) :
    val_main_v28 (F := Ideal) x1 x2 (ix2 n c) = wAt x1 x2 n c := by
  unfold val_main_v28 wAt
  rw [shapeCast_merge_apply]
  have e26 : idx_main_v26 (ix3 n (grp c) (lane c)) = ix3 n (grp c) (0 : Fin 1) :=
    funext fun a => Fin.ext (by match a with | ⟨0, _⟩ => rfl | ⟨1, _⟩ => rfl | ⟨2, _⟩ => rfl)
  have e25 : idx_main_v25 (ix3 n (grp c) (0 : Fin 1)) = ix2 n (grp c) :=
    funext fun a => Fin.ext (by match a with | ⟨0, _⟩ => rfl | ⟨1, _⟩ => rfl)
  have e24 : idx_main_v24 (ix2 n (grp c)) = ix2 (grp c) n :=
    funext fun a => Fin.ext (by match a with | ⟨0, _⟩ => rfl | ⟨1, _⟩ => rfl)
  rw [val_main_v27_apply, val_main_v26_apply, e26, val_main_v25_apply, e25, val_main_v24_apply, e24]
  unfold val_main_v23
  rw [shapeCast_split_apply, val_main_v22_apply, val_main_v21_apply]
  rfl

/-- One entry of the reference's output before the last recast. -/
theorem out_apply (m : Fin 4096) (n : Fin 3072) :
    val_main_v34 (F := Ideal) x0 x1 x2 x3 x4 x5 x6 (ix2 m n)
      = outAt (val_main_v19 (F := Ideal) x0 x3) (val_main_v4 (F := Ideal) x0 x3 x4) x1 x2 x5 x6 m n := by
  have e33 : idx_main_v32 (idx_main_v33 (ix2 m n)) = ix1 n := funext fun a => Fin.ext (by match a with | ⟨0, _⟩ => rfl)
  rw [val_main_v34_apply, val_main_v31_apply, val_main_v33_apply, val_main_v32_apply, e33, val_main_v29_apply,
    val_main_v30_apply]
  unfold outAt
  refine congrArg₂ (· + ·) (congrArg₂ (· + ·) (Finset.sum_congr rfl fun k _ => ?_) (Finset.sum_congr rfl fun k _ => ?_)) rfl
  · have el : lidx_main_v29 (ix2 m n) k = ix2 m k :=
      funext fun a => Fin.ext (by match a with | ⟨0, _⟩ => rfl | ⟨1, _⟩ => rfl)
    have er : ridx_main_v29 (ix2 m n) k = ix2 n k :=
      funext fun a => Fin.ext (by match a with | ⟨0, _⟩ => rfl | ⟨1, _⟩ => rfl)
    rw [el, er, weight_apply]
  · have el : lidx_main_v30 (ix2 m n) k = ix2 m k :=
      funext fun a => Fin.ext (by match a with | ⟨0, _⟩ => rfl | ⟨1, _⟩ => rfl)
    have er : ridx_main_v30 (ix2 m n) k = ix2 n k :=
      funext fun a => Fin.ext (by match a with | ⟨0, _⟩ => rfl | ⟨1, _⟩ => rfl)
    rw [el, er]

/-- The reference's result is the layer of the specification applied to its arguments. -/
theorem result_eq :
    val_main_v35 (F := Ideal) x0 x1 x2 x3 x4 x5 x6 = layer x0 x1 x2 x3 x4 x5 x6 := by
  have h34 : val_main_v34 (F := Ideal) x0 x1 x2 x3 x4 x5 x6
      = outArr (xdqArr (val_main_v0 (F := Ideal) x0) x3) (loraArr (val_main_v0 (F := Ideal) x0) x3 x4) x1 x2 x5 x6 := by
    funext i
    obtain ⟨m, n, rfl⟩ : ∃ (m : Fin 4096) (n : Fin 3072), i = ix2 m n := ⟨i 0, i 1, eq_ix2 i⟩
    rw [out_apply, Acts.xdq_eq, Acts.lora_eq]
    rfl
  unfold val_main_v35 layer
  rw [h34]
  rfl

end Cert.ReferenceIdeal.Out

end
-- ==== Proof.lean ====
/-
  A linear layer with 4-bit weights, 4-bit activations and a low-rank correction: the kernel program against its
  reference over the extended reals.

  The kernel program computes the layer in two passes. The first, on blocks of 256 tokens, smooths the activations,
  forms the low-rank hidden states and quantises every group of 64 channels to a 4-bit code times a step. The second, on
  tiles of 512 tokens by 512 output channels, turns the weight codes into weights, multiplies the dequantised activations
  with them, and adds the low-rank correction and the bias. The reference does the same on whole arrays. Over the
  extended reals every operation of the one is the textbook operation of the other, a change of number format is the
  identity, each sum runs over the same index set on both sides, and the blocks and tiles are restrictions of the
  whole-array functions; so both results are ONE function of the seven arguments (Proof/Spec.lean, Proof/Layer.lean) and
  no finiteness of the inputs is used.

  The three programs run to the end, nothing faulting, with their arguments unchanged; the ideal pass rewrote nothing,
  so the kernel's idealisation is its own text; and the two idealised programs end with equal results.
-/
import proofs.«105690_j33990371180875_1_alg».proof.Defs
import proofs.«105690_j33990371180875_1_alg».proof.Proof.Gen.Kernel
import proofs.«105690_j33990371180875_1_alg».proof.Proof.Gen.Kernel.Frame
import proofs.«105690_j33990371180875_1_alg».proof.Proof.Gen.KernelIdeal
import proofs.«105690_j33990371180875_1_alg».proof.Proof.Gen.KernelIdeal.Frame
import proofs.«105690_j33990371180875_1_alg».proof.Proof.Gen.ReferenceIdeal
import proofs.«105690_j33990371180875_1_alg».proof.Proof.Gen.Pre_finite_inputs
import proofs.«105690_j33990371180875_1_alg».proof.Proof.Gen.ReferenceIdeal.Run
import proofs.«105690_j33990371180875_1_alg».proof.Proof.Gen.ReferenceIdeal.Read
import proofs.«105690_j33990371180875_1_alg».proof.Proof.KernelRun
import proofs.«105690_j33990371180875_1_alg».proof.Proof.RefOut
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories that agree on the arguments both programs end with the layer of the specification applied to them. -/
theorem algebraic : Cert.algebraic_KernelIdeal_ReferenceIdeal := by
  intro m ρ m' ρ' _ hagree
  refine ⟨fun c => Cert.QuantLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v35_eq, Cert.ReferenceIdeal.Out.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
